-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000 : Shape := ⟨1, ![400000]⟩
abbrev S400000x3 : Shape := ⟨2, ![400000, 3]⟩
abbrev S400000x20 : Shape := ⟨2, ![400000, 20]⟩
abbrev S25000x128 : Shape := ⟨2, ![25000, 128]⟩
abbrev S25000x128x3 : Shape := ⟨3, ![25000, 128, 3]⟩
abbrev S128x128 : Shape := ⟨2, ![128, 128]⟩
abbrev S128 : Shape := ⟨1, ![128]⟩
abbrev S384x128 : Shape := ⟨2, ![384, 128]⟩
abbrev S384 : Shape := ⟨1, ![384]⟩
abbrev S384x20 : Shape := ⟨2, ![384, 20]⟩
abbrev S_ : Shape := ⟨0, ![]⟩

class Facts : Prop where
  bcast_S_S400000x3 : S_.BroadcastsInDim S400000x3 (![] : Fin 0 → Fin S400000x3.rank)
  reducesTo_S400000x3_S_d0_1 : S400000x3.ReducesTo [0, 1] S_
  h_S_ : 0 < S_.numel
  bcast_S_S400000 : S_.BroadcastsInDim S400000 (![] : Fin 0 → Fin S400000.rank)
  reducesTo_S400000_S_d0 : S400000.ReducesTo [0] S_
  bcast_S_S400000x20 : S_.BroadcastsInDim S400000x20 (![] : Fin 0 → Fin S400000x20.rank)
  reducesTo_S400000x20_S_d0_1 : S400000x20.ReducesTo [0, 1] S_
  bcast_S_S25000x128 : S_.BroadcastsInDim S25000x128 (![] : Fin 0 → Fin S25000x128.rank)
  reducesTo_S25000x128_S_d0_1 : S25000x128.ReducesTo [0, 1] S_
  bcast_S_S25000x128x3 : S_.BroadcastsInDim S25000x128x3 (![] : Fin 0 → Fin S25000x128x3.rank)
  reducesTo_S25000x128x3_S_d0_1_2 : S25000x128x3.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S384x20 : S_.BroadcastsInDim S384x20 (![] : Fin 0 → Fin S384x20.rank)
  reducesTo_S384x20_S_d0_1 : S384x20.ReducesTo [0, 1] S_

variable [Facts]

def fn_part3 {F : FTy → Type} [FloatOps F] (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  main_v53

def fn_part2 {F : FTy → Type} [FloatOps F] (main_arg9 : FVec F S384x128 .f32) (main_arg10 : FVec F S384 .f32) (main_arg11 : FVec F S384x20 .f32) (main_arg12 : FVec F S384 .f32) (main_v33 : IVec S_ 1) : IVec S_ 1 :=
  let main_v34 : FVec F S384x128 .f32 := Host.absf main_arg9
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384 .f32 := Host.absf main_arg10
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384x20 .f32 := Host.absf main_arg11
  let main_cst_16 : FVec F S_ .f32 := constant S_ .f32 0x7F800000#32
  let main_v45 : FVec F S384x20 .f32 := broadcastInDim S384x20 ![] bcast_S_S384x20 main_cst_16
  let main_v46 : IVec S384x20 1 := cmpf .olt main_v44 main_v45
  let main_c_17 : IVec S_ 1 := constantI S_ 1 1#1
  let main_v47 : IVec S_ 1 := (fun x v => Host.reduce IntOp.andi x v reducesTo_S384x20_S_d0_1 h_S_) main_v46 main_c_17
  let main_v48 : IVec S_ 1 := andi main_v43 main_v47
  let main_v49 : FVec F S384 .f32 := Host.absf main_arg12
  let main_cst_18 : FVec F S_ .f32 := constant S_ .f32 0x7F800000#32
  let main_v50 : FVec F S384 .f32 := broadcastInDim S384 ![] bcast_S_S384 main_cst_18
  fn_part3 (F := F) main_v48 main_v49 main_v50

def fn_part1 {F : FTy → Type} [FloatOps F] (main_arg6 : FVec F S25000x128x3 .f32) (main_arg7 : FVec F S128x128 .f32) (main_arg8 : FVec F S128 .f32) (main_arg9 : FVec F S384x128 .f32) (main_arg10 : FVec F S384 .f32) (main_arg11 : FVec F S384x20 .f32) (main_arg12 : FVec F S384 .f32) (main_v13 : IVec S_ 1) (main_v16 : IVec S25000x128 1) : IVec S_ 1 :=
  let main_c_5 : IVec S_ 1 := constantI S_ 1 1#1
  let main_v17 : IVec S_ 1 := (fun x v => Host.reduce IntOp.andi x v reducesTo_S25000x128_S_d0_1 h_S_) main_v16 main_c_5
  let main_v18 : IVec S_ 1 := andi main_v13 main_v17
  let main_v19 : FVec F S25000x128x3 .f32 := Host.absf main_arg6
  let main_cst_6 : FVec F S_ .f32 := constant S_ .f32 0x7F800000#32
  let main_v20 : FVec F S25000x128x3 .f32 := broadcastInDim S25000x128x3 ![] bcast_S_S25000x128x3 main_cst_6
  let main_v21 : IVec S25000x128x3 1 := cmpf .olt main_v19 main_v20
  let main_c_7 : IVec S_ 1 := constantI S_ 1 1#1
  let main_v22 : IVec S_ 1 := (fun x v => Host.reduce IntOp.andi x v reducesTo_S25000x128x3_S_d0_1_2 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : IVec S400000 32) (main_arg1 : IVec S400000 32) (main_arg2 : FVec F S400000x3 .f32) (main_arg3 : FVec F S400000 .f32) (main_arg4 : FVec F S400000x20 .f32) (main_arg5 : FVec F S25000x128 .f32) (main_arg6 : FVec F S25000x128x3 .f32) (main_arg7 : FVec F S128x128 .f32) (main_arg8 : FVec F S128 .f32) (main_arg9 : FVec F S384x128 .f32) (main_arg10 : FVec F S384 .f32) (main_arg11 : FVec F S384x20 .f32) (main_arg12 : FVec F S384 .f32) : IVec S_ 1 :=
  let main_v0 : FVec F S400000x3 .f32 := Host.absf main_arg2
  let main_cst : FVec F S_ .f32 := constant S_ .f32 0x7F800000#32
  let main_v1 : FVec F S400000x3 .f32 := broadcastInDim S400000x3 ![] bcast_S_S400000x3 main_cst
  let main_v2 : IVec S400000x3 1 := cmpf .olt main_v0 main_v1
  let main_c : IVec S_ 1 := constantI S_ 1 1#1
  let main_v3 : IVec S_ 1 := (fun x v => Host.reduce IntOp.andi x v reducesTo_S400000x3_S_d0_1 h_S_) main_v2 main_c
  let main_v4 : FVec F S400000 .f32 := Host.absf main_arg3
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S400000x20 .f32 := Host.absf main_arg4
  let main_cst_2 : FVec F S_ .f32 := constant S_ .f32 0x7F800000#32
  let main_v10 : FVec F S400000x20 .f32 := broadcastInDim S400000x20 ![] bcast_S_S400000x20 main_cst_2
  let main_v11 : IVec S400000x20 1 := cmpf .olt main_v9 main_v10
  let main_c_3 : IVec S_ 1 := constantI S_ 1 1#1
  let main_v12 : IVec S_ 1 := (fun x v => Host.reduce IntOp.andi x v reducesTo_S400000x20_S_d0_1 h_S_) main_v11 main_c_3
  let main_v13 : IVec S_ 1 := andi main_v8 main_v12
  let main_v14 : FVec F S25000x128 .f32 := Host.absf main_arg5
  let main_cst_4 : FVec F S_ .f32 := constant S_ .f32 0x7F800000#32
  let main_v15 : FVec F S25000x128 .f32 := broadcastInDim S25000x128 ![] bcast_S_S25000x128 main_cst_4
  let main_v16 : IVec S25000x128 1 := cmpf .olt main_v14 main_v15
  fn_part1 (F := F) main_arg6 main_arg7 main_arg8 main_arg9 main_arg10 main_arg11 main_arg12 main_v13 main_v16
-- ==== Kernel.lean ====
abbrev S400000 : Shape := ⟨1, ![400000]⟩
abbrev S400000x3 : Shape := ⟨2, ![400000, 3]⟩
abbrev S400000x20 : Shape := ⟨2, ![400000, 20]⟩
abbrev S25000x128 : Shape := ⟨2, ![25000, 128]⟩
abbrev S25000x128x3 : Shape := ⟨3, ![25000, 128, 3]⟩
abbrev S128x128 : Shape := ⟨2, ![128, 128]⟩
abbrev S128 : Shape := ⟨1, ![128]⟩
abbrev S384x128 : Shape := ⟨2, ![384, 128]⟩
abbrev S384 : Shape := ⟨1, ![384]⟩
abbrev S384x20 : Shape := ⟨2, ![384, 20]⟩
abbrev S128x384 : Shape := ⟨2, ![128, 384]⟩
abbrev S20x384 : Shape := ⟨2, ![20, 384]⟩
abbrev S1x128 : Shape := ⟨2, ![1, 128]⟩
abbrev S1x384 : Shape := ⟨2, ![1, 384]⟩
abbrev S400000x1 : Shape := ⟨2, ![400000, 1]⟩
abbrev S25000x384 : Shape := ⟨2, ![25000, 384]⟩
abbrev S1000x128 : Shape := ⟨2, ![1000, 128]⟩
abbrev S1000x384 : Shape := ⟨2, ![1000, 384]⟩
abbrev S400000x384 : Shape := ⟨2, ![400000, 384]⟩
abbrev S4000x20 : Shape := ⟨2, ![4000, 20]⟩
abbrev S4000x1 : Shape := ⟨2, ![4000, 1]⟩
abbrev S4000x384 : Shape := ⟨2, ![4000, 384]⟩
abbrev S_ : Shape := ⟨0, ![]⟩
abbrev S25000x3x128 : Shape := ⟨3, ![25000, 3, 128]⟩
abbrev S400000x3x128 : Shape := ⟨3, ![400000, 3, 128]⟩
abbrev S400000x128 : Shape := ⟨2, ![400000, 128]⟩
abbrev S1000x3x128 : Shape := ⟨3, ![1000, 3, 128]⟩
abbrev S1000x3 : Shape := ⟨2, ![1000, 3]⟩
abbrev S1000x1x128 : Shape := ⟨3, ![1000, 1, 128]⟩
abbrev S1000x3x1 : Shape := ⟨3, ![1000, 3, 1]⟩

abbrev nBuf : Space → Nat
  | .hbm => 54
  | .vmem => 28
  | .smem => 0
  | _ => 0

abbrev bufTy : (tb : Table) → Fin (tcTables nBuf tb) → BufTy
  | .hbm, ⟨0, _⟩ => ⟨S400000, .i32⟩
  | .hbm, ⟨1, _⟩ => ⟨S400000, .i32⟩
  | .hbm, ⟨2, _⟩ => ⟨S400000x3, .f32⟩
  | .hbm, ⟨3, _⟩ => ⟨S400000, .f32⟩
  | .hbm, ⟨4, _⟩ => ⟨S400000x20, .f32⟩
  | .hbm, ⟨5, _⟩ => ⟨S25000x128, .f32⟩
  | .hbm, ⟨6, _⟩ => ⟨S25000x128x3, .f32⟩
  | .hbm, ⟨7, _⟩ => ⟨S128x128, .f32⟩
  | .hbm, ⟨8, _⟩ => ⟨S128, .f32⟩
  | .hbm, ⟨9, _⟩ => ⟨S384x128, .f32⟩
  | .hbm, ⟨10, _⟩ => ⟨S384, .f32⟩
  | .hbm, ⟨11, _⟩ => ⟨S384x20, .f32⟩
  | .hbm, ⟨12, _⟩ => ⟨S384, .f32⟩
  | .hbm, ⟨13, _⟩ => ⟨S128x128, .f32⟩
  | .hbm, ⟨14, _⟩ => ⟨S128x384, .f32⟩
  | .hbm, ⟨15, _⟩ => ⟨S20x384, .f32⟩
  | .hbm, ⟨16, _⟩ => ⟨S1x128, .f32⟩
  | .hbm, ⟨17, _⟩ => ⟨S1x384, .f32⟩
  | .hbm, ⟨18, _⟩ => ⟨S1x384, .f32⟩
  | .hbm, ⟨19, _⟩ => ⟨S400000x1, .f32⟩
  | .hbm, ⟨20, _⟩ => ⟨S25000x384, .f32⟩
  | .hbm, ⟨21, _⟩ => ⟨S400000x384, .f32⟩
  | .hbm, ⟨22, _⟩ => ⟨S_, .i32⟩
  | .hbm, ⟨23, _⟩ => ⟨S400000, .i32⟩
  | .hbm, ⟨24, _⟩ => ⟨S400000, .i1⟩
  | .hbm, ⟨25, _⟩ => ⟨S_, .i32⟩
  | .hbm, ⟨26, _⟩ => ⟨S400000, .i32⟩
  | .hbm, ⟨27, _⟩ => ⟨S400000, .i32⟩
  | .hbm, ⟨28, _⟩ => ⟨S400000, .i32⟩
  | .hbm, ⟨29, _⟩ => ⟨S400000x1, .i32⟩
  | .hbm, ⟨30, _⟩ => ⟨S400000x384, .f32⟩
  | .hbm, ⟨31, _⟩ => ⟨S25000x3x128, .f32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x3x128, .f32⟩
  | .hbm, ⟨41, _⟩ => ⟨S400000x128, .f32⟩
  | .hbm, ⟨42, _⟩ => ⟨S400000x3x128, .f32⟩
  | .hbm, ⟨43, _⟩ => ⟨S_, .f32⟩
  | .hbm, ⟨44, _⟩ => ⟨S25000x128, .f32⟩
  | .hbm, ⟨45, _⟩ => ⟨S400000x1, .i32⟩
  | .hbm, ⟨46, _⟩ => ⟨S25000x128, .f32⟩
  | .hbm, ⟨47, _⟩ => ⟨S_, .f32⟩
  | .hbm, ⟨48, _⟩ => ⟨S25000x3x128, .f32⟩
  | .hbm, ⟨49, _⟩ => ⟨S400000x1, .i32⟩
  | .hbm, ⟨50, _⟩ => ⟨S25000x3x128, .f32⟩
  | .hbm, ⟨51, _⟩ => ⟨S25000x128x3, .f32⟩
  | .hbm, ⟨52, _⟩ => ⟨S25000x128, .f32⟩
  | .hbm, ⟨53, _⟩ => ⟨S25000x128x3, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S128x384, .f32⟩
  | .local _ .vmem, ⟨5, _⟩ => ⟨S1x384, .f32⟩
  | .local _ .vmem, ⟨6, _⟩ => ⟨S1000x384, .f32⟩
  | .local _ .vmem, ⟨7, _⟩ => ⟨S1000x384, .f32⟩
  | .local _ .vmem, ⟨8, _⟩ => ⟨S4000x20, .f32⟩
  | .local _ .vmem, ⟨9, _⟩ => ⟨S4000x20, .f32⟩
  | .local _ .vmem, ⟨10, _⟩ => ⟨S4000x1, .f32⟩
  | .local _ .vmem, ⟨11, _⟩ => ⟨S4000x1, .f32⟩
  | .local _ .vmem, ⟨12, _⟩ => ⟨S20x384, .f32⟩
  | .local _ .vmem, ⟨13, _⟩ => ⟨S1x384, .f32⟩
  | .local _ .vmem, ⟨14, _⟩ => ⟨S4000x384, .f32⟩
  | .local _ .vmem, ⟨15, _⟩ => ⟨S4000x384, .f32⟩
  | .local _ .vmem, ⟨16, _⟩ => ⟨S1000x384, .f32⟩
  | .local _ .vmem, ⟨17, _⟩ => ⟨S1000x384, .f32⟩
  | .local _ .vmem, ⟨18, _⟩ => ⟨S1000x384, .f32⟩
  | .local _ .vmem, ⟨19, _⟩ => ⟨S1000x384, .f32⟩
  | .local _ .vmem, ⟨20, _⟩ => ⟨S1000x3x128, .f32⟩
  | .local _ .vmem, ⟨21, _⟩ => ⟨S1000x3x128, .f32⟩
  | .local _ .vmem, ⟨22, _⟩ => ⟨S1000x3, .f32⟩
  | .local _ .vmem, ⟨23, _⟩ => ⟨S1000x3, .f32⟩
  | .local _ .vmem, ⟨24, _⟩ => ⟨S1000x128, .f32⟩
  | .local _ .vmem, ⟨25, _⟩ => ⟨S1000x128, .f32⟩
  | .local _ .vmem, ⟨26, _⟩ => ⟨S1000x3x128, .f32⟩
  | .local _ .vmem, ⟨27, _⟩ => ⟨S1000x3x128, .f32⟩
  | _, _ => ⟨S400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S20x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x3x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x3x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S128x128_S128x128_1_0 : S128x128.Transposes [1, 0] S128x128
  transposes_S384x128_S128x384_1_0 : S384x128.Transposes [1, 0] S128x384
  transposes_S384x20_S20x384_1_0 : S384x20.Transposes [1, 0] S20x384
  shapeCasts_S128_S1x128 : S128.ShapeCasts S1x128
  shapeCasts_S384_S1x384 : S384.ShapeCasts S1x384
  shapeCasts_S400000_S400000x1 : S400000.ShapeCasts S400000x1
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  inb_S1000x384_S1000x384_0_0 : ∀ a, (![0, 0] : Fin 2 → Nat) a + S1000x384.size a ≤ S1000x384.size a
  h_S1000x384 : 0 < S1000x384.numel
  inb_S4000x20_S4000x20_0_0 : ∀ a, (![0, 0] : Fin 2 → Nat) a + S4000x20.size a ≤ S4000x20.size a
  h_S4000x20 : 0 < S4000x20.numel
  inb_S20x384_S20x384_0_0 : ∀ a, (![0, 0] : Fin 2 → Nat) a + S20x384.size a ≤ S20x384.size a
  h_S20x384 : 0 < S20x384.numel
  shapeCasts_S20x384_S20x384 : S20x384.ShapeCasts S20x384
  broadcasts_S1x384_S4000x384 : S1x384.Broadcasts S4000x384
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x384 : S4000x1.Broadcasts S4000x384
  inb_S4000x384_S4000x384_0_0 : ∀ a, (![0, 0] : Fin 2 → Nat) a + S4000x384.size a ≤ S4000x384.size a
  h_S4000x384 : 0 < S4000x384.numel
  bcast_S_S400000 : S_.BroadcastsInDim S400000 (![] : Fin 0 → Fin S400000.rank)
  bcast_S400000_S400000x1_0 : S400000.BroadcastsInDim S400000x1 (![0] : Fin 1 → Fin S400000x1.rank)
  transposes_S25000x128x3_S25000x3x128_0_2_1 : S25000x128x3.Transposes [0, 2, 1] S25000x3x128
  shapeCasts_S1000x384_S1000x384 : S1000x384.ShapeCasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  inb_S1000x3x128_S1000x3x128_0_0_0 : ∀ a, (![0, 0, 0] : Fin 3 → Nat) a + S1000x3x128.size a ≤ S1000x3x128.size a
  h_S1000x3x128 : 0 < S1000x3x128.numel
  shapeCasts_S1000x3x128_S1000x3x128 : S1000x3x128.ShapeCasts S1000x3x128
  inb_S1000x3_S1000x3_0_0 : ∀ a, (![0, 0] : Fin 2 → Nat) a + S1000x3.size a ≤ S1000x3.size a
  h_S1000x3 : 0 < S1000x3.numel
  shapeCasts_S1000x128_S1000x1x128 : S1000x128.ShapeCasts S1000x1x128
  broadcasts_S1000x1x128_S1000x3x128 : S1000x1x128.Broadcasts S1000x3x128
  shapeCasts_S1000x3_S1000x3x1 : S1000x3.ShapeCasts S1000x3x1
  broadcasts_S1000x3x1_S1000x3x128 : S1000x3x1.Broadcasts S1000x3x128
  bcast_S_S25000x128 : S_.BroadcastsInDim S25000x128 (![] : Fin 0 → Fin S25000x128.rank)
  bcast_S_S25000x3x128 : S_.BroadcastsInDim S25000x3x128 (![] : Fin 0 → Fin S25000x3x128.rank)
  transposes_S25000x3x128_S25000x128x3_0_2_1 : S25000x3x128.Transposes [0, 2, 1] S25000x128x3
  dot_S1000x128_S128x128_S1000x128_1_0_0_1_n_n_wf : DotDims.WF S1000x128 S128x128 S1000x128 [1] [0] [0] [1] [] []
  dot_S1000x128_S128x384_S1000x384_1_0_0_1_n_n_wf : DotDims.WF S1000x128 S128x384 S1000x384 [1] [0] [0] [1] [] []
  dot_S4000x20_S20x384_S4000x384_1_0_0_1_n_n_wf : DotDims.WF S4000x20 S20x384 S4000x384 [1] [0] [0] [1] [] []
  gather_S25000x384_S400000x1_S400000x384_1_0_n_n_0_1_1384_wf : GatherDims.WF S25000x384 S400000x1 S400000x384 [1] [0] [] [0] [] 1 ![1, 384]
  gather_S25000x3x128_S400000x1_S400000x3x128_12_0_n_n_0_1_13128_wf : GatherDims.WF S25000x3x128 S400000x1 S400000x3x128 [1, 2] [0] [] [0] [] 1 ![1, 3, 128]
  scatter_S25000x128_S400000x1_S400000x128_1_0_0_1_wf : ScatterDims.WF S25000x128 S400000x1 S400000x128 [1] [0] [0] 1
  scatter_S25000x3x128_S400000x1_S400000x3x128_12_0_0_1_wf : ScatterDims.WF S25000x3x128 S400000x1 S400000x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S25000x128.size a
  hwx0_0 : ∀ i : grid0.Coords, EltTy.bits .f32 = 32 ∨ (Rect.block (s := S25000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x384.size a ≤ S25000x384.size a
  hwx0_5 : ∀ i : grid0.Coords, EltTy.bits .f32 = 32 ∨ (Rect.block (s := S25000x384) S1000x384.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x20.size a ≤ S400000x20.size a
  hwx1_0 : ∀ i : grid1.Coords, EltTy.bits .f32 = 32 ∨ (Rect.block (s := S400000x20) S4000x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S400000x1.size a
  hwx1_1 : ∀ i : grid1.Coords, EltTy.bits .f32 = 32 ∨ (Rect.block (s := S400000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20x384.size a ≤ S20x384.size a
  hwx1_2 : ∀ i : grid1.Coords, EltTy.bits .f32 = 32 ∨ (Rect.block (s := S20x384) S20x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x384.size a ≤ S400000x384.size a
  hwx1_4 : ∀ i : grid1.Coords, EltTy.bits .f32 = 32 ∨ (Rect.block (s := S400000x384) S4000x384.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x384.size a ≤ S400000x384.size a
  hwx2_0 : ∀ i : grid2.Coords, EltTy.bits .f32 = 32 ∨ (Rect.block (s := S400000x384) S1000x384.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x384.size a ≤ S400000x384.size a
  hwx2_1 : ∀ i : grid2.Coords, EltTy.bits .f32 = 32 ∨ (Rect.block (s := S400000x384) S1000x384.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x3x128.size a ≤ S400000x3x128.size a
  hwx2_2 : ∀ i : grid2.Coords, EltTy.bits .f32 = 32 ∨ (Rect.block (s := S400000x3x128) S1000x3x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x3.size a ≤ S400000x3.size a
  hwx2_3 : ∀ i : grid2.Coords, EltTy.bits .f32 = 32 ∨ (Rect.block (s := S400000x3) S1000x3.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S400000x128.size a
  hwx2_4 : ∀ i : grid2.Coords, EltTy.bits .f32 = 32 ∨ (Rect.block (s := S400000x128) S1000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x3x128.size a ≤ S400000x3x128.size a
  hwx2_5 : ∀ i : grid2.Coords, EltTy.bits .f32 = 32 ∨ (Rect.block (s := S400000x3x128) S1000x3x128.size (cc2_transform_5 i) (hinb2_5 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf
def dot_S4000x20_S20x384_S4000x384_1_0_0_1_n_n : DotDims S4000x20 S20x384 S4000x384 where
  lhsContracting := [1]
  rhsContracting := [0]
  lhsNonContracting := [0]
  rhsNonContracting := [1]
  lhsBatch := []
  rhsBatch := []
  wf := dot_S4000x20_S20x384_S4000x384_1_0_0_1_n_n_wf
def gather_S25000x384_S400000x1_S400000x384_1_0_n_n_0_1_1384 : GatherDims S25000x384 S400000x1 S400000x384 where
  offsetDims := [1]
  collapsedSliceDims := [0]
  operandBatchingDims := []
  startIndicesBatchingDims := []
  startIndexMap := [0]
  indexVectorDim := 1
  sliceSizes := ![1, 384]
  wf := gather_S25000x384_S400000x1_S400000x384_1_0_n_n_0_1_1384_wf
def gather_S25000x3x128_S400000x1_S400000x3x128_12_0_n_n_0_1_13128 : GatherDims S25000x3x128 S400000x1 S400000x3x128 where
  offsetDims := [1, 2]
  collapsedSliceDims := [0]
  operandBatchingDims := []
  startIndicesBatchingDims := []
  startIndexMap := [0]
  indexVectorDim := 1
  sliceSizes := ![1, 3, 128]
  wf := gather_S25000x3x128_S400000x1_S400000x3x128_12_0_n_n_0_1_13128_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def scatter_S25000x3x128_S400000x1_S400000x3x128_12_0_0_1 : ScatterDims S25000x3x128 S400000x1 S400000x3x128 where
  updateWindowDims := [1, 2]
  insertedWindowDims := [0]
  scatterDimsToOperandDims := [0]
  indexVectorDim := 1
  wf := scatter_S25000x3x128_S400000x1_S400000x3x128_12_0_0_1_wf

abbrev win0_0 : Pipeline.Window sig grid0 :=
  Pipeline.Window.ofSpec (Memref.whole main_arg5) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1000x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg4) S4000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S20x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S4000x384.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S1000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1000x384.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1000x3x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S1000x3.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v24_0) S1000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v24_1) S1000x3x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S400000 : Shape := ⟨1, ![400000]⟩
abbrev S400000x3 : Shape := ⟨2, ![400000, 3]⟩
abbrev S400000x20 : Shape := ⟨2, ![400000, 20]⟩
abbrev S25000x128 : Shape := ⟨2, ![25000, 128]⟩
abbrev S25000x128x3 : Shape := ⟨3, ![25000, 128, 3]⟩
abbrev S128x128 : Shape := ⟨2, ![128, 128]⟩
abbrev S128 : Shape := ⟨1, ![128]⟩
abbrev S384x128 : Shape := ⟨2, ![384, 128]⟩
abbrev S384 : Shape := ⟨1, ![384]⟩
abbrev S384x20 : Shape := ⟨2, ![384, 20]⟩
abbrev S1x128 : Shape := ⟨2, ![1, 128]⟩
abbrev S_ : Shape := ⟨0, ![]⟩
abbrev S128x384 : Shape := ⟨2, ![128, 384]⟩
abbrev S25000x384 : Shape := ⟨2, ![25000, 384]⟩
abbrev S1x384 : Shape := ⟨2, ![1, 384]⟩
abbrev S20x384 : Shape := ⟨2, ![20, 384]⟩
abbrev S400000x384 : Shape := ⟨2, ![400000, 384]⟩
abbrev S400000x1 : Shape := ⟨2, ![400000, 1]⟩
abbrev S400000x128 : Shape := ⟨2, ![400000, 128]⟩
abbrev S400000x128x3 : Shape := ⟨3, ![400000, 128, 3]⟩
abbrev S400000x128x1 : Shape := ⟨3, ![400000, 128, 1]⟩
abbrev S400000x1x3 : Shape := ⟨3, ![400000, 1, 3]⟩

abbrev nBuf : Space → Nat
  | .hbm => 81
  | .vmem => 0
  | .smem => 0
  | _ => 0

abbrev bufTy : (tb : Table) → Fin (tcTables nBuf tb) → BufTy
  | .hbm, ⟨0, _⟩ => ⟨S400000, .i32⟩
  | .hbm, ⟨1, _⟩ => ⟨S400000, .i32⟩
  | .hbm, ⟨2, _⟩ => ⟨S400000x3, .f32⟩
  | .hbm, ⟨3, _⟩ => ⟨S400000, .f32⟩
  | .hbm, ⟨4, _⟩ => ⟨S400000x20, .f32⟩
  | .hbm, ⟨5, _⟩ => ⟨S25000x128, .f32⟩
  | .hbm, ⟨6, _⟩ => ⟨S25000x128x3, .f32⟩
  | .hbm, ⟨7, _⟩ => ⟨S128x128, .f32⟩
  | .hbm, ⟨8, _⟩ => ⟨S128, .f32⟩
  | .hbm, ⟨9, _⟩ => ⟨S384x128, .f32⟩
  | .hbm, ⟨10, _⟩ => ⟨S384, .f32⟩
  | .hbm, ⟨11, _⟩ => ⟨S384x20, .f32⟩
  | .hbm, ⟨12, _⟩ => ⟨S384, .f32⟩
  | .hbm, ⟨13, _⟩ => ⟨S128x128, .f32⟩
  | .hbm, ⟨14, _⟩ => ⟨S25000x128, .f32⟩
  | .hbm, ⟨15, _⟩ => ⟨S1x128, .f32⟩
  | .hbm, ⟨16, _⟩ => ⟨S25000x128, .f32⟩
  | .hbm, ⟨17, _⟩ => ⟨S25000x128, .f32⟩
  | .hbm, ⟨18, _⟩ => ⟨S25000x128, .f32⟩
  | .hbm, ⟨19, _⟩ => ⟨S25000x128, .f32⟩
  | .hbm, ⟨20, _⟩ => ⟨S_, .f32⟩
  | .hbm, ⟨21, _⟩ => ⟨S25000x128, .f32⟩
  | .hbm, ⟨22, _⟩ => ⟨S25000x128, .f32⟩
  | .hbm, ⟨23, _⟩ => ⟨S_, .f32⟩
  | .hbm, ⟨24, _⟩ => ⟨S25000x128, .f32⟩
  | .hbm, ⟨25, _⟩ => ⟨S25000x128, .f32⟩
  | .hbm, ⟨26, _⟩ => ⟨S25000x128, .f32⟩
  | .hbm, ⟨27, _⟩ => ⟨S128x384, .f32⟩
  | .hbm, ⟨28, _⟩ => ⟨S25000x384, .f32⟩
  | .hbm, ⟨29, _⟩ => ⟨S1x384, .f32⟩
  | .hbm, ⟨30, _⟩ => ⟨S25000x384, .f32⟩
  | .hbm, ⟨31, _⟩ => ⟨S25000x384, .f32⟩
  | .hbm, ⟨32, _⟩ => ⟨S20x384, .f32⟩
  | .hbm, ⟨33, _⟩ => ⟨S400000x384, .f32⟩
  | .hbm, ⟨34, _⟩ => ⟨S1x384, .f32⟩
  | .hbm, ⟨35, _⟩ => ⟨S400000x384, .f32⟩
  | .hbm, ⟨36, _⟩ => ⟨S400000x384, .f32⟩
  | .hbm, ⟨37, _⟩ => ⟨S400000x1, .f32⟩
  | .hbm, ⟨38, _⟩ => ⟨S400000x384, .f32⟩
  | .hbm, ⟨39, _⟩ => ⟨S400000x384, .f32⟩
  | .hbm, ⟨40, _⟩ => ⟨S_, .i32⟩
  | .hbm, ⟨41, _⟩ => ⟨S400000, .i32⟩
  | .hbm, ⟨42, _⟩ => ⟨S400000, .i1⟩
  | .hbm, ⟨43, _⟩ => ⟨S_, .i32⟩
  | .hbm, ⟨44, _⟩ => ⟨S400000, .i32⟩
  | .hbm, ⟨45, _⟩ => ⟨S400000, .i32⟩
  | .hbm, ⟨46, _⟩ => ⟨S400000, .i32⟩
  | .hbm, ⟨47, _⟩ => ⟨S400000x1, .i32⟩
  | .hbm, ⟨48, _⟩ => ⟨S400000x384, .f32⟩
  | .hbm, ⟨49, _⟩ => ⟨S400000x384, .f32⟩
  | .hbm, ⟨50, _⟩ => ⟨S400000x128, .f32⟩
  | .hbm, ⟨51, _⟩ => ⟨S400000x128, .f32⟩
  | .hbm, ⟨52, _⟩ => ⟨S400000x128, .f32⟩
  | .hbm, ⟨53, _⟩ => ⟨S_, .f32⟩
  | .hbm, ⟨54, _⟩ => ⟨S25000x128, .f32⟩
  | .hbm, ⟨55, _⟩ => ⟨S400000x1, .i32⟩
  | .hbm, ⟨56, _⟩ => ⟨S25000x128, .f32⟩
  | .hbm, ⟨57, _⟩ => ⟨S_, .i32⟩
  | .hbm, ⟨58, _⟩ => ⟨S400000, .i32⟩
  | .hbm, ⟨59, _⟩ => ⟨S400000, .i1⟩
  | .hbm, ⟨60, _⟩ => ⟨S_, .i32⟩
  | .hbm, ⟨61, _⟩ => ⟨S400000, .i32⟩
  | .hbm, ⟨62, _⟩ => ⟨S400000, .i32⟩
  | .hbm, ⟨63, _⟩ => ⟨S400000, .i32⟩
  | .hbm, ⟨64, _⟩ => ⟨S400000x1, .i32⟩
  | .hbm, ⟨65, _⟩ => ⟨S400000x128x3, .f32⟩
  | .hbm, ⟨66, _⟩ => ⟨S400000x128x1, .f32⟩
  | .hbm, ⟨67, _⟩ => ⟨S400000x128x3, .f32⟩
  | .hbm, ⟨68, _⟩ => ⟨S400000x128x3, .f32⟩
  | .hbm, ⟨69, _⟩ => ⟨S400000x128x1, .f32⟩
  | .hbm, ⟨70, _⟩ => ⟨S400000x1x3, .f32⟩
  | .hbm, ⟨71, _⟩ => ⟨S400000x128x3, .f32⟩
  | .hbm, ⟨72, _⟩ => ⟨S400000x128x3, .f32⟩
  | .hbm, ⟨73, _⟩ => ⟨S400000x128x3, .f32⟩
  | .hbm, ⟨74, _⟩ => ⟨S400000x128x3, .f32⟩
  | .hbm, ⟨75, _⟩ => ⟨S_, .f32⟩
  | .hbm, ⟨76, _⟩ => ⟨S25000x128x3, .f32⟩
  | .hbm, ⟨77, _⟩ => ⟨S400000x1, .i32⟩
  | .hbm, ⟨78, _⟩ => ⟨S25000x128x3, .f32⟩
  | .hbm, ⟨79, _⟩ => ⟨S25000x128, .f32⟩
  | .hbm, ⟨80, _⟩ => ⟨S25000x128x3, .f32⟩
  | _, _ => ⟨S400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_1 : Ref sig .tc := ⟨.hbm, 57, rfl⟩
abbrev main_v33 : Ref sig .tc := ⟨.hbm, 58, rfl⟩
abbrev main_v34 : Ref sig .tc := ⟨.hbm, 59, rfl⟩
abbrev main_c_2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S25000x128_0_1 : S1x128.BroadcastsInDim S25000x128 (![0, 1] : Fin 2 → Fin S25000x128.rank)
  bcast_S_S25000x128 : S_.BroadcastsInDim S25000x128 (![] : Fin 0 → Fin S25000x128.rank)
  transposes_S384x128_S128x384_1_0 : S384x128.Transposes [1, 0] S128x384
  bcast_S384_S1x384_1 : S384.BroadcastsInDim S1x384 (![1] : Fin 1 → Fin S1x384.rank)
  bcast_S1x384_S25000x384_0_1 : S1x384.BroadcastsInDim S25000x384 (![0, 1] : Fin 2 → Fin S25000x384.rank)
  transposes_S384x20_S20x384_1_0 : S384x20.Transposes [1, 0] S20x384
  bcast_S1x384_S400000x384_0_1 : S1x384.BroadcastsInDim S400000x384 (![0, 1] : Fin 2 → Fin S400000x384.rank)
  bcast_S400000_S400000x1_0 : S400000.BroadcastsInDim S400000x1 (![0] : Fin 1 → Fin S400000x1.rank)
  bcast_S400000x1_S400000x384_0_1 : S400000x1.BroadcastsInDim S400000x384 (![0, 1] : Fin 2 → Fin S400000x384.rank)
  bcast_S_S400000 : S_.BroadcastsInDim S400000 (![] : Fin 0 → Fin S400000.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  bcast_S400000x128_S400000x128x1_0_1 : S400000x128.BroadcastsInDim S400000x128x1 (![0, 1] : Fin 2 → Fin S400000x128x1.rank)
  bcast_S400000x128x1_S400000x128x3_0_1_2 : S400000x128x1.BroadcastsInDim S400000x128x3 (![0, 1, 2] : Fin 3 → Fin S400000x128x3.rank)
  bcast_S400000x3_S400000x1x3_0_2 : S400000x3.BroadcastsInDim S400000x1x3 (![0, 2] : Fin 2 → Fin S400000x1x3.rank)
  bcast_S400000x1x3_S400000x128x3_0_1_2 : S400000x1x3.BroadcastsInDim S400000x128x3 (![0, 1, 2] : Fin 3 → Fin S400000x128x3.rank)
  bcast_S_S25000x128x3 : S_.BroadcastsInDim S25000x128x3 (![] : Fin 0 → Fin S25000x128x3.rank)
  dot_S25000x128_S128x128_S25000x128_1_0_0_1_n_n_wf : DotDims.WF S25000x128 S128x128 S25000x128 [1] [0] [0] [1] [] []
  dot_S25000x128_S128x384_S25000x384_1_0_0_1_n_n_wf : DotDims.WF S25000x128 S128x384 S25000x384 [1] [0] [0] [1] [] []
  dot_S400000x20_S20x384_S400000x384_1_0_0_1_n_n_wf : DotDims.WF S400000x20 S20x384 S400000x384 [1] [0] [0] [1] [] []
  gather_S25000x384_S400000x1_S400000x384_1_0_n_n_0_1_1384_wf : GatherDims.WF S25000x384 S400000x1 S400000x384 [1] [0] [] [0] [] 1 ![1, 384]
  scatter_S25000x128_S400000x1_S400000x128_1_0_0_1_wf : ScatterDims.WF S25000x128 S400000x1 S400000x128 [1] [0] [0] 1
  gather_S25000x128x3_S400000x1_S400000x128x3_12_0_n_n_0_1_11283_wf : GatherDims.WF S25000x128x3 S400000x1 S400000x128x3 [1, 2] [0] [] [0] [] 1 ![1, 128, 3]
  scatter_S25000x128x3_S400000x1_S400000x128x3_12_0_0_1_wf : ScatterDims.WF S25000x128x3 S400000x1 S400000x128x3 [1, 2] [0] [0] 1

variable [Facts₀]

def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf
def dot_S25000x128_S128x384_S25000x384_1_0_0_1_n_n : DotDims S25000x128 S128x384 S25000x384 where
  lhsContracting := [1]
  rhsContracting := [0]
  lhsNonContracting := [0]
  rhsNonContracting := [1]
  lhsBatch := []
  rhsBatch := []
  wf := dot_S25000x128_S128x384_S25000x384_1_0_0_1_n_n_wf
def dot_S400000x20_S20x384_S400000x384_1_0_0_1_n_n : DotDims S400000x20 S20x384 S400000x384 where
  lhsContracting := [1]
  rhsContracting := [0]
  lhsNonContracting := [0]
  rhsNonContracting := [1]
  lhsBatch := []
  rhsBatch := []
  wf := dot_S400000x20_S20x384_S400000x384_1_0_0_1_n_n_wf
def gather_S25000x384_S400000x1_S400000x384_1_0_n_n_0_1_1384 : GatherDims S25000x384 S400000x1 S400000x384 where
  offsetDims := [1]
  collapsedSliceDims := [0]
  operandBatchingDims := []
  startIndicesBatchingDims := []
  startIndexMap := [0]
  indexVectorDim := 1
  sliceSizes := ![1, 384]
  wf := gather_S25000x384_S400000x1_S400000x384_1_0_n_n_0_1_1384_wf
def scatter_S25000x128_S400000x1_S400000x128_1_0_0_1 : ScatterDims S25000x128 S400000x1 S400000x128 where
  updateWindowDims := [1]
  insertedWindowDims := [0]
  scatterDimsToOperandDims := [0]
  indexVectorDim := 1
  wf := scatter_S25000x128_S400000x1_S400000x128_1_0_0_1_wf
def gather_S25000x128x3_S400000x1_S400000x128x3_12_0_n_n_0_1_11283 : GatherDims S25000x128x3 S400000x1 S400000x128x3 where
  offsetDims := [1, 2]
  collapsedSliceDims := [0]
  operandBatchingDims := []
  startIndicesBatchingDims := []
  startIndexMap := [0]
  indexVectorDim := 1
  sliceSizes := ![1, 128, 3]
  wf := gather_S25000x128x3_S400000x1_S400000x128x3_12_0_n_n_0_1_11283_wf
def scatter_S25000x128x3_S400000x1_S400000x128x3_12_0_0_1 : ScatterDims S25000x128x3 S400000x1 S400000x128x3 where
  updateWindowDims := [1, 2]
  insertedWindowDims := [0]
  scatterDimsToOperandDims := [0]
  indexVectorDim := 1
  wf := scatter_S25000x128x3_S400000x1_S400000x128x3_12_0_0_1_wf

class Facts : Prop extends Facts₀ where

variable [Facts]
-- ==== Proof.Spec.lean ====
/-
  The functions both programs compute, index by index, on the extended reals.

  * A two-layer perceptron on the rows of a matrix: row `n` of `x` goes to `act (x n · w1t + b1) · w2t + b2`, where
    `act h = h · 1/(1 + e^(-h))`. Every sum is a finite sum over the shared axis.
  * A radial-basis projection gated by a per-row factor: `(r e · wrt + br) · d e`.
  * The combination of two `N × 384` arrays `p`, `w` into messages: with `q = p ⊙ w` (entrywise product) cut into three
    blocks of 128 columns, the scalar message is the middle block, and the vector message at `(e, k, f)` is
    `v (e, k, f) · q (e, f) + r (e, k) · q (e, 256 + f)`.
  Each is stated for an arbitrary number of rows `N`, so that the same formula reads a block of rows and the whole array.
-/
import Idealize.ShloMosaic.Lib.ValueIdx
import Idealize.ShloMosaic.PureOps.Ideal

noncomputable section

open scoped BigOperators

namespace Cert.Spec

open Idealize.ShloMosaic Idealize.ShloMosaic.ValueIdx

/-- `h ↦ h · 1/(1 + e^(-h))` on the extended reals. -/
def act (h : EReal) : EReal := h * Ideal.logistic h

/-- The hidden layer at row `n`, unit `k`: `∑ j, x (n, j) · w1t (j, k) + b1 k`. -/
def hidAt {N : Nat} (x : FVec Ideal ⟨2, ![N, 128]⟩ .f32) (w1t : FVec Ideal ⟨2, ![128, 128]⟩ .f32)
    (b1r : FVec Ideal ⟨2, ![1, 128]⟩ .f32) (n : Fin N) (k : Fin 128) : EReal :=
  (∑ j : Fin 128, x (ix2 n j) * w1t (ix2 j k)) + b1r (ix2 0 k)

/-- The perceptron at row `n`, output `o`: `∑ k, act (hidden n k) · w2t (k, o) + b2 o`. -/
def mlpAt {N : Nat} (x : FVec Ideal ⟨2, ![N, 128]⟩ .f32) (w1t : FVec Ideal ⟨2, ![128, 128]⟩ .f32)
    (b1r : FVec Ideal ⟨2, ![1, 128]⟩ .f32) (w2t : FVec Ideal ⟨2, ![128, 384]⟩ .f32)
    (b2r : FVec Ideal ⟨2, ![1, 384]⟩ .f32) (n : Fin N) (o : Fin 384) : EReal :=
  (∑ k : Fin 128, act (hidAt x w1t b1r n k) * w2t (ix2 k o)) + b2r (ix2 0 o)

/-- The perceptron of all 25000 rows, as one array. -/
def mlp (x : FVec Ideal ⟨2, ![25000, 128]⟩ .f32) (w1t : FVec Ideal ⟨2, ![128, 128]⟩ .f32)
    (b1r : FVec Ideal ⟨2, ![1, 128]⟩ .f32) (w2t : FVec Ideal ⟨2, ![128, 384]⟩ .f32)
    (b2r : FVec Ideal ⟨2, ![1, 384]⟩ .f32) : FVec Ideal ⟨2, ![25000, 384]⟩ .f32 :=
  fun i => mlpAt x w1t b1r w2t b2r (i 0) (i 1)

theorem mlp_apply (x : FVec Ideal ⟨2, ![25000, 128]⟩ .f32) (w1t : FVec Ideal ⟨2, ![128, 128]⟩ .f32)
    (b1r : FVec Ideal ⟨2, ![1, 128]⟩ .f32) (w2t : FVec Ideal ⟨2, ![128, 384]⟩ .f32)
    (b2r : FVec Ideal ⟨2, ![1, 384]⟩ .f32) (n : Fin 25000) (o : Fin 384) :
    mlp x w1t b1r w2t b2r (ix2 n o) = mlpAt x w1t b1r w2t b2r n o := rfl

/-- The gated projection at row `e`, output `o`: `(∑ j, r (e, j) · wrt (j, o) + br o) · d e`. -/
def rbfAt {N : Nat} (r : FVec Ideal ⟨2, ![N, 20]⟩ .f32) (d : FVec Ideal ⟨2, ![N, 1]⟩ .f32)
    (wrt : FVec Ideal ⟨2, ![20, 384]⟩ .f32) (brr : FVec Ideal ⟨2, ![1, 384]⟩ .f32) (e : Fin N) (o : Fin 384) : EReal :=
  ((∑ j : Fin 20, r (ix2 e j) * wrt (ix2 j o)) + brr (ix2 0 o)) * d (ix2 e 0)

/-- The gated projection of all 400000 rows, as one array. -/
def rbf (r : FVec Ideal ⟨2, ![400000, 20]⟩ .f32) (d : FVec Ideal ⟨2, ![400000, 1]⟩ .f32)
    (wrt : FVec Ideal ⟨2, ![20, 384]⟩ .f32) (brr : FVec Ideal ⟨2, ![1, 384]⟩ .f32) : FVec Ideal ⟨2, ![400000, 384]⟩ .f32 :=
  fun i => rbfAt r d wrt brr (i 0) (i 1)

theorem rbf_apply (r : FVec Ideal ⟨2, ![400000, 20]⟩ .f32) (d : FVec Ideal ⟨2, ![400000, 1]⟩ .f32)
    (wrt : FVec Ideal ⟨2, ![20, 384]⟩ .f32) (brr : FVec Ideal ⟨2, ![1, 384]⟩ .f32) (e : Fin 400000) (o : Fin 384) :
    rbf r d wrt brr (ix2 e o) = rbfAt r d wrt brr e o := rfl

/-- Column `off + f` of a 384-column row, for a block offset `off ∈ {0, 128, 256}`. -/
abbrev col (off : Nat) (h : off + 128 ≤ 384) (f : Fin 128) : Fin 384 := ⟨off + f.val, by have := f.isLt; omega⟩

/-- The scalar message at `(e, f)`: the middle block of `p ⊙ w`. -/
def scalAt {N : Nat} (p w : FVec Ideal ⟨2, ![N, 384]⟩ .f32) (e : Fin N) (f : Fin 128) : EReal :=
  p (ix2 e (col 128 (by omega) f)) * w (ix2 e (col 128 (by omega) f))

/-- The vector message at `(e, k, f)`: `v (e, k, f) · q (e, f) + r (e, k) · q (e, 256 + f)` with `q = p ⊙ w`. -/
def vecAt {N : Nat} (p w : FVec Ideal ⟨2, ![N, 384]⟩ .f32) (v : FVec Ideal ⟨3, ![N, 3, 128]⟩ .f32)
    (r : FVec Ideal ⟨2, ![N, 3]⟩ .f32) (e : Fin N) (k : Fin 3) (f : Fin 128) : EReal :=
  v (ix3 e k f) * (p (ix2 e (col 0 (by omega) f)) * w (ix2 e (col 0 (by omega) f)))
    + r (ix2 e k) * (p (ix2 e (col 256 (by omega) f)) * w (ix2 e (col 256 (by omega) f)))

/-- The scalar messages of all 400000 rows. -/
def scal (p w : FVec Ideal ⟨2, ![400000, 384]⟩ .f32) : FVec Ideal ⟨2, ![400000, 128]⟩ .f32 :=
  fun i => scalAt p w (i 0) (i 1)

theorem scal_apply (p w : FVec Ideal ⟨2, ![400000, 384]⟩ .f32) (e : Fin 400000) (f : Fin 128) :
    scal p w (ix2 e f) = scalAt p w e f := rfl

/-- The vector messages of all 400000 rows, laid out `[row, component, feature]`. -/
def vec (p w : FVec Ideal ⟨2, ![400000, 384]⟩ .f32) (v : FVec Ideal ⟨3, ![400000, 3, 128]⟩ .f32)
    (r : FVec Ideal ⟨2, ![400000, 3]⟩ .f32) : FVec Ideal ⟨3, ![400000, 3, 128]⟩ .f32 :=
  fun i => vecAt p w v r (i 0) (i 1) (i 2)

theorem vec_apply (p w : FVec Ideal ⟨2, ![400000, 384]⟩ .f32) (v : FVec Ideal ⟨3, ![400000, 3, 128]⟩ .f32)
    (r : FVec Ideal ⟨2, ![400000, 3]⟩ .f32) (e : Fin 400000) (k : Fin 3) (f : Fin 128) :
    vec p w v r (ix3 e k f) = vecAt p w v r e k f := rfl

end Cert.Spec

end
-- ==== Proof.Result.lean ====
/-
  The two arrays the program returns, written as pure terms of the arrays it is launched with.

  `phi` is the perceptron of the node features (weights transposed, biases as rows); `wts` the gated projection of the
  edge features; `rows` the sender index of every edge, a negative index counted from the end; `phiJ` and `vecJ` are the
  rows of `phi` and of the node vectors (laid out `[node, component, feature]`) that the edges name. The scalar result adds
  to the node features the sum, over the edges received by each node, of the scalar messages; the vector result does the
  same with the vector messages, accumulated in the layout `[node, component, feature]` and turned back to
  `[node, feature, component]` at the end.
-/
import proofs.«123346_j82308753261028_2_alg».proof.KernelIdeal
import proofs.«123346_j82308753261028_2_alg».proof.Proof.Gen.KernelIdeal
import proofs.«123346_j82308753261028_2_alg».proof.Proof.Spec

noncomputable section

namespace Cert.KernelIdeal.Res

open Cert.KernelIdeal Cert.KernelIdeal.Gen Idealize.ShloMosaic Idealize.ShloMosaic.TcCoe Idealize.SL.Sem

variable (m : (ℓ : Loc nD τ sig) → Buf (Elt Ideal) ℓ) (c : Dev nD)

/-- The perceptron of the node features. -/
def phi : FVec Ideal S25000x384 .f32 :=
  Cert.Spec.mlp (m ((c : Thread nD τ).loc main_arg5))
    (transpose S128x128 [1, 0] (m ((c : Thread nD τ).loc main_arg7)) transposes_S128x128_S128x128_1_0)
    (shapeCast S1x128 (m ((c : Thread nD τ).loc main_arg8)) shapeCasts_S128_S1x128)
    (transpose S128x384 [1, 0] (m ((c : Thread nD τ).loc main_arg9)) transposes_S384x128_S128x384_1_0)
    (shapeCast S1x384 (m ((c : Thread nD τ).loc main_arg10)) shapeCasts_S384_S1x384)

/-- The gated projection of the edge features. -/
def wts : FVec Ideal S400000x384 .f32 :=
  Cert.Spec.rbf (m ((c : Thread nD τ).loc main_arg4))
    (shapeCast S400000x1 (m ((c : Thread nD τ).loc main_arg3)) shapeCasts_S400000_S400000x1)
    (transpose S20x384 [1, 0] (m ((c : Thread nD τ).loc main_arg11)) transposes_S384x20_S20x384_1_0)
    (shapeCast S1x384 (m ((c : Thread nD τ).loc main_arg12)) shapeCasts_S384_S1x384)

/-- Every edge's sender index as a column, a negative index moved up by the number of nodes. -/
def rows : IVec S400000x1 32 :=
  broadcastInDim S400000x1 ![0] bcast_S400000_S400000x1_0
    (select (cmpi .slt (m ((c : Thread nD τ).loc main_arg1)) (broadcastInDim S400000 ![] bcast_S_S400000 (constantI S_ 32 0#32)))
      (addi (m ((c : Thread nD τ).loc main_arg1)) (broadcastInDim S400000 ![] bcast_S_S400000 (constantI S_ 32 25000#32)))
      (m ((c : Thread nD τ).loc main_arg1)))

/-- The perceptron's row of every edge's sender. -/
def phiJ : FVec Ideal S400000x384 .f32 :=
  Host.gather gather_S25000x384_S400000x1_S400000x384_1_0_n_n_0_1_1384 (phi m c) (rows m c)

/-- The node vectors' row of every edge's sender, `[edge, component, feature]`. -/
def vecJ : FVec Ideal S400000x3x128 .f32 :=
  Host.gather gather_S25000x3x128_S400000x1_S400000x3x128_12_0_n_n_0_1_13128
    (transpose S25000x3x128 [0, 2, 1] (m ((c : Thread nD τ).loc main_arg6)) transposes_S25000x128x3_S25000x3x128_0_2_1) (rows m c)

/-- The scalar result. -/
def res0 : FVec Ideal S25000x128 .f32 :=
  addf (m ((c : Thread nD τ).loc main_arg5))
    (Host.scatterAdd scatter_S25000x128_S400000x1_S400000x128_1_0_0_1
      (broadcastInDim S25000x128 ![] bcast_S_S25000x128 (constant S_ .f32 0x00000000#32))
      (broadcastInDim S400000x1 ![0] bcast_S400000_S400000x1_0 (m ((c : Thread nD τ).loc main_arg0)))
      (Cert.Spec.scal (phiJ m c) (wts m c)))

/-- The vector result. -/
def res1 : FVec Ideal S25000x128x3 .f32 :=
  addf (m ((c : Thread nD τ).loc main_arg6))
    (transpose S25000x128x3 [0, 2, 1]
      (Host.scatterAdd scatter_S25000x3x128_S400000x1_S400000x3x128_12_0_0_1
        (broadcastInDim S25000x3x128 ![] bcast_S_S25000x3x128 (constant S_ .f32 0x00000000#32))
        (broadcastInDim S400000x1 ![0] bcast_S400000_S400000x1_0 (m ((c : Thread nD τ).loc main_arg0)))
        (Cert.Spec.vec (phiJ m c) (wts m c) (vecJ m c) (m ((c : Thread nD τ).loc main_arg2))))
      transposes_S25000x3x128_S25000x128x3_0_2_1)

end Cert.KernelIdeal.Res

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.MlpRegion.lean ====
/-
  Region 0: a two-layer perceptron applied to the rows of a 25000 × 128 matrix, 1000 rows per grid point.

  At one grid point the body loads a block of 1000 rows and the four parameter arrays whole, and stores
  `act (rows · w1t + b1) · w2t + b2` with `act h = h · 1/(1 + e^(-h))`. On the extended reals the narrowing format changes
  are the identity and each matrix product into the zero accumulator is a finite sum over the shared axis, so the stored
  value at row `p`, column `o` of the block is the perceptron of the loaded blocks at `(p, o)` (`pay_apply`).

  The output's 25 row blocks tile its array, row block `t` is rows `1000 t … 1000 t + 999` of the input, and the parameter
  arrays are read whole at every point; so after the region the output array is the perceptron of the arrays the region
  found, row by row (`final`).
-/
import proofs.«123346_j82308753261028_2_alg».proof.Proof.Gen.KernelIdeal.Frame
import proofs.«123346_j82308753261028_2_alg».proof.Proof.Spec
import proofs.«123346_j82308753261028_2_alg».proof.Proof.LibDotSum
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.MlpRegion

open Cert.KernelIdeal Cert.KernelIdeal.Gen Idealize.ShloMosaic Idealize.ShloMosaic.TcCoe Idealize.SL.Sem
open Idealize.ShloMosaic.ValueIdx
open Idealize.ShloMosaic.Pipeline (Dat)

/-! ## The two contractions' operand indices, coordinate by coordinate -/

/-- First product, left operand: its row is the result's row … -/
theorem lhs1_0 (j : S1000x128.Idx) (k : dot_S1000x128_S128x128_S1000x128_1_0_0_1_n_n.contr.Idx) :
    (dot_S1000x128_S128x128_S1000x128_1_0_0_1_n_n.lhsIdx j k 0).val = (j 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl
/-- … and its column the contracted coordinate. -/
theorem lhs1_1 (j : S1000x128.Idx) (k : dot_S1000x128_S128x128_S1000x128_1_0_0_1_n_n.contr.Idx) :
    (dot_S1000x128_S128x128_S1000x128_1_0_0_1_n_n.lhsIdx j k 1).val = (k ⟨0, by decide⟩).val :=
  dot_S1000x128_S128x128_S1000x128_1_0_0_1_n_n.lhsIdx_val_of_single rfl j k
/-- First product, right operand: its row is the contracted coordinate … -/
theorem rhs1_0 (j : S1000x128.Idx) (k : dot_S1000x128_S128x128_S1000x128_1_0_0_1_n_n.contr.Idx) :
    (dot_S1000x128_S128x128_S1000x128_1_0_0_1_n_n.rhsIdx j k 0).val = (k ⟨0, by decide⟩).val :=
  dot_S1000x128_S128x128_S1000x128_1_0_0_1_n_n.rhsIdx_val_of_single rfl j k
/-- … and its column the result's column. -/
theorem rhs1_1 (j : S1000x128.Idx) (k : dot_S1000x128_S128x128_S1000x128_1_0_0_1_n_n.contr.Idx) :
    (dot_S1000x128_S128x128_S1000x128_1_0_0_1_n_n.rhsIdx j k 1).val = (j 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- Second product, left operand: its row is the result's row … -/
theorem lhs2_0 (j : S1000x384.Idx) (k : dot_S1000x128_S128x384_S1000x384_1_0_0_1_n_n.contr.Idx) :
    (dot_S1000x128_S128x384_S1000x384_1_0_0_1_n_n.lhsIdx j k 0).val = (j 0).val := by
  unfold DotDims.lhsIdx
  rw [dif_neg (show ¬(0 : Fin S1000x128.rank) ∈ dot_S1000x128_S128x384_S1000x384_1_0_0_1_n_n.lhsBatch by decide),
    dif_pos (show (0 : Fin S1000x128.rank) ∈ dot_S1000x128_S128x384_S1000x384_1_0_0_1_n_n.lhsNonContracting by decide)]
  rfl
/-- … and its column the contracted coordinate. -/
theorem lhs2_1 (j : S1000x384.Idx) (k : dot_S1000x128_S128x384_S1000x384_1_0_0_1_n_n.contr.Idx) :
    (dot_S1000x128_S128x384_S1000x384_1_0_0_1_n_n.lhsIdx j k 1).val = (k ⟨0, by decide⟩).val :=
  dot_S1000x128_S128x384_S1000x384_1_0_0_1_n_n.lhsIdx_val_of_single rfl j k
/-- Second product, right operand: its row is the contracted coordinate … -/
theorem rhs2_0 (j : S1000x384.Idx) (k : dot_S1000x128_S128x384_S1000x384_1_0_0_1_n_n.contr.Idx) :
    (dot_S1000x128_S128x384_S1000x384_1_0_0_1_n_n.rhsIdx j k 0).val = (k ⟨0, by decide⟩).val :=
  dot_S1000x128_S128x384_S1000x384_1_0_0_1_n_n.rhsIdx_val_of_single rfl j k
/-- … and its column the result's column. -/
theorem rhs2_1 (j : S1000x384.Idx) (k : dot_S1000x128_S128x384_S1000x384_1_0_0_1_n_n.contr.Idx) :
    (dot_S1000x128_S128x384_S1000x384_1_0_0_1_n_n.rhsIdx j k 1).val = (j 1).val := by
  unfold DotDims.rhsIdx
  rw [dif_neg (show ¬(1 : Fin S128x384.rank) ∈ dot_S1000x128_S128x384_S1000x384_1_0_0_1_n_n.rhsBatch by decide),
    dif_pos (show (1 : Fin S128x384.rank) ∈ dot_S1000x128_S128x384_S1000x384_1_0_0_1_n_n.rhsNonContracting by decide)]
  rfl

/-! ## The body's stored value at an index -/

/-- The first layer before the activation, as the body computes it from its loaded blocks. -/
def pre (x0 : Vec Ideal S1000x128 .f32) (x1 : Vec Ideal S128x128 .f32) (x2 : Vec Ideal S1x128 .f32) : FVec Ideal S1000x128 .f32 :=
  addf (matmul dot_S1000x128_S128x128_S1000x128_1_0_0_1_n_n none (truncf .bf16 x0 bitsLt_bf16_f32)
      (truncf .bf16 (shapeCast S128x128 x1 shapeCasts_S128x128_S128x128) bitsLt_bf16_f32) (constant S1000x128 .f32 0x00000000#32))
    (broadcastTo S1000x128 (shapeCast S1x128 x2 shapeCasts_S1x128_S1x128) broadcasts_S1x128_S1000x128)

/-- The stored value is the second layer of the activated first layer. -/
theorem pay_eq (x0 : Vec Ideal S1000x128 .f32) (x1 : Vec Ideal S128x128 .f32) (x2 : Vec Ideal S1x128 .f32)
    (x3 : Vec Ideal S128x384 .f32) (x4 : Vec Ideal S1x384 .f32) :
    Gen.k0_pay1 (F := Ideal) x0 x1 x2 x3 x4
      = addf (matmul dot_S1000x128_S128x384_S1000x384_1_0_0_1_n_n none
            (truncf .bf16 (mulf (pre x0 x1 x2) (logistic (pre x0 x1 x2))) bitsLt_bf16_f32)
            (truncf .bf16 (shapeCast S128x384 x3 shapeCasts_S128x384_S128x384) bitsLt_bf16_f32) (constant S1000x384 .f32 0x00000000#32))
          (broadcastTo S1000x384 (shapeCast S1x384 x4 shapeCasts_S1x384_S1x384) broadcasts_S1x384_S1000x384) := rfl

set_option maxHeartbeats 400000 in
/-- The first layer before the activation at row `p`, unit `k`: `∑ j, x (p, j) · w1t (j, k) + b1 k`. -/
theorem pre_apply (x0 : Vec Ideal S1000x128 .f32) (x1 : Vec Ideal S128x128 .f32) (x2 : Vec Ideal S1x128 .f32)
    (p : Fin 1000) (k : Fin 128) : pre x0 x1 x2 (ix2 p k) = Cert.Spec.hidAt (N := 1000) x0 x1 x2 p k := by
  unfold pre Cert.Spec.hidAt
  rw [shapeCast_self, shapeCast_self]
  simp only [matmul]
  refine (addf_apply _ _ _).trans ?_
  rw [Ideal.matmul_constant_zero_apply, broadcastTo_1b_ab_apply]
  rw [Cert.LibDotSum.plain dot_S1000x128_S128x128_S1000x128_1_0_0_1_n_n rfl rfl lhs1_0 lhs1_1 rhs1_0 rhs1_1
    (fun a b => truncf (F := Ideal) .bf16 x0 bitsLt_bf16_f32 a * truncf (F := Ideal) .bf16 x1 bitsLt_bf16_f32 b) (ix2 p k)]
  rfl

set_option maxHeartbeats 400000 in
/-- The body's stored value at row p, column o of a block is the perceptron of the loaded blocks at (p, o). -/
theorem pay_apply (x0 : Vec Ideal S1000x128 .f32) (x1 : Vec Ideal S128x128 .f32) (x2 : Vec Ideal S1x128 .f32)
    (x3 : Vec Ideal S128x384 .f32) (x4 : Vec Ideal S1x384 .f32) (p : Fin 1000) (o : Fin 384) :
    Gen.k0_pay1 (F := Ideal) x0 x1 x2 x3 x4 (ix2 p o) = Cert.Spec.mlpAt (N := 1000) x0 x1 x2 x3 x4 p o := by
  rw [pay_eq]
  unfold Cert.Spec.mlpAt
  rw [shapeCast_self, shapeCast_self]
  simp only [matmul]
  refine (addf_apply _ _ _).trans ?_
  rw [Ideal.matmul_constant_zero_apply, broadcastTo_1b_ab_apply]
  rw [Cert.LibDotSum.plain dot_S1000x128_S128x384_S1000x384_1_0_0_1_n_n rfl rfl lhs2_0 lhs2_1 rhs2_0 rhs2_1
    (fun a b => truncf (F := Ideal) .bf16 (mulf (pre x0 x1 x2) (logistic (pre x0 x1 x2))) bitsLt_bf16_f32 a
      * truncf (F := Ideal) .bf16 x3 bitsLt_bf16_f32 b) (ix2 p o)]
  refine congrArg (· + x4 (ix2 (0 : Fin 1) o)) (Finset.sum_congr rfl fun k _ => ?_)
  show pre x0 x1 x2 (ix2 p k) * Ideal.logistic (pre x0 x1 x2 (ix2 p k)) * x3 (ix2 k o) = _
  rw [pre_apply]
  rfl

/-! ## A row of the perceptron read through blocks -/

/-- The perceptron of a block of rows at `(p, o)` is the perceptron of the whole matrix at `(r, o')` when row `p` of the
    block is row `r` of the matrix, the parameter blocks are the parameter arrays, and the columns agree. -/
theorem mlpAt_of_blocks {X : FVec Ideal ⟨2, ![25000, 128]⟩ .f32} {W1 : FVec Ideal ⟨2, ![128, 128]⟩ .f32}
    {B1 : FVec Ideal ⟨2, ![1, 128]⟩ .f32} {W2 : FVec Ideal ⟨2, ![128, 384]⟩ .f32} {B2 : FVec Ideal ⟨2, ![1, 384]⟩ .f32}
    {x0 : FVec Ideal ⟨2, ![1000, 128]⟩ .f32} {x1 : FVec Ideal ⟨2, ![128, 128]⟩ .f32} {x2 : FVec Ideal ⟨2, ![1, 128]⟩ .f32}
    {x3 : FVec Ideal ⟨2, ![128, 384]⟩ .f32} {x4 : FVec Ideal ⟨2, ![1, 384]⟩ .f32}
    {p : Fin 1000} {o : Fin 384} {r : Fin 25000} {o' : Fin 384}
    (h0 : ∀ j : Fin 128, x0 (ix2 p j) = X (ix2 r j)) (h1 : x1 = W1) (h2 : x2 = B1) (h3 : x3 = W2) (h4 : x4 = B2) (ho : o' = o) :
    Cert.Spec.mlpAt (N := 1000) x0 x1 x2 x3 x4 p o = Cert.Spec.mlpAt (N := 25000) X W1 B1 W2 B2 r o' := by
  subst h1 h2 h3 h4 ho
  unfold Cert.Spec.mlpAt Cert.Spec.hidAt
  simp only [h0]

/-! ## The region: what each grid point writes back, and the array after the last -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 grid points: the rows' window and the output's window sit at block `(t, 0)`,
    the four parameter windows at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

set_option maxHeartbeats 400000 in
/-- Row `p` of the rows' block at point `t` is row `1000 t + p` of the matrix. -/
theorem rows_read (c : Dev nD) (t : Fin cfg0.N) (p : Fin 1000) (j : Fin 128) (r : Fin 25000) (hr : r.val = t.val * 1000 + p.val) :
    Gen.iblk0 V c 0 t (ix2 p j) = V c main_arg5 (ix2 r j) := by
  obtain ⟨e0, e1, -⟩ := idx_facts t
  show V c main_arg5 (((cfg0.win 0).blk t).view.emb (ix2 p j)) = V c main_arg5 (ix2 r j)
  refine congrArg (V c main_arg5) (funext fun a => Fin.ext ?_)
  match a with
  | ⟨0, _⟩ => show win0_0.index t (0 : Fin 2) * 1000 + 1 * p.val = r.val; omega
  | ⟨1, _⟩ => show win0_0.index t (1 : Fin 2) * 128 + 1 * j.val = j.val; omega

set_option maxHeartbeats 400000 in
/-- The first weights' block is their whole array at every point. -/
theorem w1_read (c : Dev nD) (t : Fin cfg0.N) : Gen.iblk0 V c 1 t = V c main_v0 := by
  obtain ⟨-, -, e0, e1, -⟩ := idx_facts t
  funext y
  obtain ⟨a, b, rfl⟩ : ∃ (a : Fin 128) (b : Fin 128), y = ix2 a b := ⟨y 0, y 1, eq_ix2 y⟩
  show V c main_v0 (((cfg0.win 1).blk t).view.emb (ix2 a b)) = V c main_v0 (ix2 a b)
  refine congrArg (V c main_v0) (funext fun ax => Fin.ext ?_)
  match ax with
  | ⟨0, _⟩ => show win0_1.index t (0 : Fin 2) * 128 + 1 * a.val = a.val; omega
  | ⟨1, _⟩ => show win0_1.index t (1 : Fin 2) * 128 + 1 * b.val = b.val; omega

set_option maxHeartbeats 400000 in
/-- The first bias row's block is its whole array at every point. -/
theorem b1_read (c : Dev nD) (t : Fin cfg0.N) : Gen.iblk0 V c 2 t = V c main_v3 := by
  obtain ⟨-, -, -, -, e0, e1, -⟩ := idx_facts t
  funext y
  obtain ⟨a, b, rfl⟩ : ∃ (a : Fin 1) (b : Fin 128), y = ix2 a b := ⟨y 0, y 1, eq_ix2 y⟩
  show V c main_v3 (((cfg0.win 2).blk t).view.emb (ix2 a b)) = V c main_v3 (ix2 a b)
  refine congrArg (V c main_v3) (funext fun ax => Fin.ext ?_)
  match ax with
  | ⟨0, _⟩ => show win0_2.index t (0 : Fin 2) * 1 + 1 * a.val = a.val; omega
  | ⟨1, _⟩ => show win0_2.index t (1 : Fin 2) * 128 + 1 * b.val = b.val; omega

set_option maxHeartbeats 400000 in
/-- The second weights' block is their whole array at every point. -/
theorem w2_read (c : Dev nD) (t : Fin cfg0.N) : Gen.iblk0 V c 3 t = V c main_v1 := by
  obtain ⟨-, -, -, -, -, -, e0, e1, -⟩ := idx_facts t
  funext y
  obtain ⟨a, b, rfl⟩ : ∃ (a : Fin 128) (b : Fin 384), y = ix2 a b := ⟨y 0, y 1, eq_ix2 y⟩
  show V c main_v1 (((cfg0.win 3).blk t).view.emb (ix2 a b)) = V c main_v1 (ix2 a b)
  refine congrArg (V c main_v1) (funext fun ax => Fin.ext ?_)
  match ax with
  | ⟨0, _⟩ => show win0_3.index t (0 : Fin 2) * 128 + 1 * a.val = a.val; omega
  | ⟨1, _⟩ => show win0_3.index t (1 : Fin 2) * 384 + 1 * b.val = b.val; omega

set_option maxHeartbeats 400000 in
/-- The second bias row's block is its whole array at every point. -/
theorem b2_read (c : Dev nD) (t : Fin cfg0.N) : Gen.iblk0 V c 4 t = V c main_v4 := by
  obtain ⟨-, -, -, -, -, -, -, -, e0, e1, -⟩ := idx_facts t
  funext y
  obtain ⟨a, b, rfl⟩ : ∃ (a : Fin 1) (b : Fin 384), y = ix2 a b := ⟨y 0, y 1, eq_ix2 y⟩
  show V c main_v4 (((cfg0.win 4).blk t).view.emb (ix2 a b)) = V c main_v4 (ix2 a b)
  refine congrArg (V c main_v4) (funext fun ax => Fin.ext ?_)
  match ax with
  | ⟨0, _⟩ => show win0_4.index t (0 : Fin 2) * 1 + 1 * a.val = a.val; omega
  | ⟨1, _⟩ => show win0_4.index t (1 : Fin 2) * 384 + 1 * b.val = b.val; omega

set_option maxHeartbeats 400000 in
/-- What point `t` writes back is block `t` of the perceptron of the arrays the region found. -/
theorem flushed_eq (c : Dev nD) (t : Fin cfg0.N) :
    (Gen.dat0 (F := Ideal) V c).flushed 5 t
      = ((cfg0.win 5).blk t).view.read (Elt Ideal)
          (Cert.Spec.mlp (V c main_arg5) (V c main_v0) (V c main_v3) (V c main_v1) (V c main_v4)) := by
  show (cfg0.win 5).cut (grid0.coords t) ((Gen.dat0 (F := Ideal) V c).after 5 t) = _
  rw [Gen.after0_5]
  unfold Gen.out0_5
  rw [View.canon_unit_zero hz]
  simp only [View.ld_unit_zero (S := S1000x128) hz, View.ld_unit_zero (S := S128x128) hz, View.ld_unit_zero (S := S1x128) hz,
    View.ld_unit_zero (S := S128x384) hz, View.ld_unit_zero (S := S1x384) hz]
  obtain ⟨-, -, -, -, -, -, -, -, -, -, e0, e1⟩ := idx_facts t
  funext y
  obtain ⟨p, o, rfl⟩ : ∃ (p : Fin 1000) (o : Fin 384), y = ix2 p o := ⟨y 0, y 1, eq_ix2 y⟩
  show Gen.k0_pay1 (F := Ideal) (Gen.iblk0 V c 0 t) (Gen.iblk0 V c 1 t) (Gen.iblk0 V c 2 t) (Gen.iblk0 V c 3 t) (Gen.iblk0 V c 4 t) (ix2 p o)
    = Cert.Spec.mlpAt (N := 25000) (V c main_arg5) (V c main_v0) (V c main_v3) (V c main_v1) (V c main_v4)
        ((((cfg0.win 5).blk t).view.emb (ix2 p o)) 0) ((((cfg0.win 5).blk t).view.emb (ix2 p o)) 1)
  refine (pay_apply (Gen.iblk0 V c 0 t) (Gen.iblk0 V c 1 t) (Gen.iblk0 V c 2 t) (Gen.iblk0 V c 3 t) (Gen.iblk0 V c 4 t) p o).trans ?_
  refine mlpAt_of_blocks (fun j => rows_read V c t p j _ ?_) (w1_read V c t) (b1_read V c t) (w2_read V c t) (b2_read V c t) (Fin.ext ?_)
  · show win0_5.index t (0 : Fin 2) * 1000 + 1 * p.val = t.val * 1000 + p.val
    omega
  · show win0_5.index t (1 : Fin 2) * 384 + 1 * o.val = o.val
    omega

/-- An index of the output array is in point `t`'s block iff each coordinate is in the block's range on its axis. -/
theorem mem_blk (t : Fin cfg0.N) (i : S25000x384.Idx) :
    i ∈ ((cfg0.win 5).blk t).view.set ↔ ∀ a : Fin 2, win0_5.index t a * S1000x384.size a ≤ (i a).val
      ∧ (i a).val < win0_5.index t a * S1000x384.size a + S1000x384.size a := by
  show i ∈ ((View.whole main_v7).slice (win0_5.rect t)).set ↔ _
  rw [View.set_slice_whole, Rect.mem_set_unit]
  exact Iff.rfl

set_option maxHeartbeats 400000 in
/-- Every index of the output array is in the block of the point its row falls in: row `r` is in block `r / 1000`. -/
theorem covered (i : S25000x384.Idx) :
    ∃ t : Fin cfg0.N, (cfg0.win 5).flush t = true ∧ i ∈ ((cfg0.win 5).blk t).view.set := by
  have hi0 : (i 0).val < 25000 := (i 0).isLt
  have hi1 : (i 1).val < 384 := (i 1).isLt
  obtain ⟨t, ht⟩ : ∃ t : Fin cfg0.N, t.val = (i 0).val / 1000 :=
    ⟨⟨(i 0).val / 1000, lt_of_lt_of_eq (by omega : (i 0).val / 1000 < 25) Gen.N_0.symm⟩, rfl⟩
  obtain ⟨-, -, -, -, -, -, -, -, -, -, e0, e1⟩ := idx_facts t
  refine ⟨t, Gen.flush0_5 t, ?_⟩
  rw [mem_blk]
  intro a
  match a with
  | ⟨0, _⟩ =>
    show win0_5.index t (0 : Fin 2) * 1000 ≤ (i 0).val ∧ (i 0).val < win0_5.index t (0 : Fin 2) * 1000 + 1000
    omega
  | ⟨1, _⟩ =>
    show win0_5.index t (1 : Fin 2) * 384 ≤ (i 1).val ∧ (i 1).val < win0_5.index t (1 : Fin 2) * 384 + 384
    omega

/-- After region 0 its output array is the perceptron of the arrays the region found, whatever they are. -/
theorem final (c : Dev nD) :
    (Gen.dat0 (F := Ideal) V c).arrAt 5 cfg0.N
      = Cert.Spec.mlp (V c main_arg5) (V c main_v0) (V c main_v3) (V c main_v1) (V c main_v4) :=
  (Gen.dat0 (F := Ideal) V c).arrAt_eq_of_cover 5
    (Cert.Spec.mlp (V c main_arg5) (V c main_v0) (V c main_v3) (V c main_v1) (V c main_v4))
    (fun t _ => flushed_eq V c t) covered

end Cert.MlpRegion

end
-- ==== Proof.RbfRegion.lean ====
/-
  What the second region (the gated radial-basis projection) leaves in its output array, as one function of the arrays
  the region finds on entry.

  The region cuts the 400000 rows into 100 blocks of 4000. At each block the body multiplies the 4000 × 20 row block by
  the whole 20 × 384 matrix, adds the 1 × 384 bias row to every row, and scales row `p` by the `p`-th entry of the
  4000 × 1 column of factors. Read at one entry `(p, o)` of the block this is
  `(∑ j, r (p, j) · wrt (j, o) + br o) · d p`; since every output block is written back and the blocks tile the array,
  the array ends as that formula of the whole input arrays at every `(e, o)`.
-/
import proofs.«123346_j82308753261028_2_alg».proof.Proof.Gen.KernelIdeal.Frame
import proofs.«123346_j82308753261028_2_alg».proof.Proof.Spec
import proofs.«123346_j82308753261028_2_alg».proof.Proof.LibDotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.RbfRegion

open Cert.KernelIdeal Cert.KernelIdeal.Gen Idealize.ShloMosaic Idealize.ShloMosaic.ValueIdx
open Idealize.ShloMosaic.TcCoe Idealize.SL.Sem
open Idealize.ShloMosaic.Pipeline (Dat Cfg Window)

/-! ## The body's value at one entry of a block -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index at result `i`, contraction `q`: row `i 0` … -/
theorem dot_lhs0 (i : S4000x384.Idx) (q : dot_S4000x20_S20x384_S4000x384_1_0_0_1_n_n.contr.Idx) :
    (dot_S4000x20_S20x384_S4000x384_1_0_0_1_n_n.lhsIdx i q 0).val = (i 0).val := by
  unfold DotDims.lhsIdx
  rw [dif_neg (show ¬(0 : Fin S4000x20.rank) ∈ dot_S4000x20_S20x384_S4000x384_1_0_0_1_n_n.lhsBatch by decide),
    dif_pos (show (0 : Fin S4000x20.rank) ∈ dot_S4000x20_S20x384_S4000x384_1_0_0_1_n_n.lhsNonContracting by decide)]
  rfl
/-- … column the contracted coordinate; -/
theorem dot_lhs1 (i : S4000x384.Idx) (q : dot_S4000x20_S20x384_S4000x384_1_0_0_1_n_n.contr.Idx) :
    (dot_S4000x20_S20x384_S4000x384_1_0_0_1_n_n.lhsIdx i q 1).val = (q ⟨0, by decide⟩).val :=
  dot_S4000x20_S20x384_S4000x384_1_0_0_1_n_n.lhsIdx_val_of_single rfl i q
/-- the right operand index: row the contracted coordinate … -/
theorem dot_rhs0 (i : S4000x384.Idx) (q : dot_S4000x20_S20x384_S4000x384_1_0_0_1_n_n.contr.Idx) :
    (dot_S4000x20_S20x384_S4000x384_1_0_0_1_n_n.rhsIdx i q 0).val = (q ⟨0, by decide⟩).val :=
  dot_S4000x20_S20x384_S4000x384_1_0_0_1_n_n.rhsIdx_val_of_single rfl i q
/-- … column `i 1`. -/
theorem dot_rhs1 (i : S4000x384.Idx) (q : dot_S4000x20_S20x384_S4000x384_1_0_0_1_n_n.contr.Idx) :
    (dot_S4000x20_S20x384_S4000x384_1_0_0_1_n_n.rhsIdx i q 1).val = (i 1).val := by
  unfold DotDims.rhsIdx
  rw [dif_neg (show ¬(1 : Fin S20x384.rank) ∈ dot_S4000x20_S20x384_S4000x384_1_0_0_1_n_n.rhsBatch by decide),
    dif_pos (show (1 : Fin S20x384.rank) ∈ dot_S4000x20_S20x384_S4000x384_1_0_0_1_n_n.rhsNonContracting by decide)]
  rfl

/-- The body's stored value at row `p`, column `o` of a block is the gated projection of the loaded blocks at `(p, o)`:
    the product's sum over the 20 shared columns, plus the bias at `o`, times the factor of row `p`. (The loaded blocks come
    in the body's load order: the row block, the matrix, the bias row, the column of factors.) -/
theorem pay_apply (x0 : Vec Ideal S4000x20 .f32) (x2 : Vec Ideal S20x384 .f32) (x6 : Vec Ideal S1x384 .f32)
    (x10 : Vec Ideal S4000x1 .f32) (p : Fin 4000) (o : Fin 384) :
    Gen.k1_pay1 (F := Ideal) x0 x2 x6 x10 (ix2 p o) = Cert.Spec.rbfAt (N := 4000) x0 x10 x2 x6 p o := by
  unfold Gen.k1_pay1 Cert.Spec.rbfAt
  simp only [matmul, shapeCast_self]
  rw [mulf_apply, addf_apply, broadcastTo_a1_ab_apply, broadcastTo_1b_ab_apply, Ideal.matmul_constant_zero_apply]
  rw [Cert.LibDotSum.plain dot_S4000x20_S20x384_S4000x384_1_0_0_1_n_n rfl rfl dot_lhs0 dot_lhs1 dot_rhs0 dot_rhs1
    (fun a b => (truncf .bf16 x0 bitsLt_bf16_f32 : FVec Ideal S4000x20 .bf16) a * (truncf .bf16 x2 bitsLt_bf16_f32 : FVec Ideal S20x384 .bf16) b) (ix2 p o)]
  rfl

/-! ## The region: every block written back is a block of the gated projection of the whole arrays -/

section Region

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 100 points: the row-blocked windows (the rows, the factors, the output)
    sit at block `(t, 0)`; the matrix and the bias row are whole, at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the gated projection of the arrays as the region finds them: row `p` of the
    block is row `4000 t + p` of the array, in the row-blocked inputs as in the output, and the matrix and the bias row
    are read whole. -/
theorem flushed_eq (c : Dev nD) (t : Fin cfg1.N) :
    (Gen.dat1 V c).flushed 4 t = ((cfg1.win 4).blk t).view.read (Elt Ideal)
      (Cert.Spec.rbf (V c main_arg4) (V c main_v6) (V c main_v2) (V c main_v5)) := by
  show (cfg1.win 4).cut (grid1.coords t) ((Gen.dat1 V c).after 4 t) = _
  rw [Gen.after1_4]
  unfold Gen.out1_4
  rw [View.canon_unit_zero hz]
  simp only [View.ld_unit_zero (S := S4000x20) hz, View.ld_unit_zero (S := S20x384) hz,
    View.ld_unit_zero (S := S1x384) hz, View.ld_unit_zero (S := S4000x1) hz]
  obtain ⟨e0, e1, e2, e3, e4, e5, e6, e7, e8, e9⟩ := idx_facts t
  have ht : t.val < 100 := t.isLt.trans_eq Gen.N_1
  funext y
  obtain ⟨p, o, rfl⟩ : ∃ (p : Fin 4000) (o : Fin 384), y = ix2 p o := ⟨y 0, y 1, eq_ix2 y⟩
  refine (pay_apply (Gen.iblk1 V c 0 t) (Gen.iblk1 V c 2 t) (Gen.iblk1 V c 3 t) (Gen.iblk1 V c 1 t) p o).trans ?_
  have hp : p.val < 4000 := p.isLt
  have ho : o.val < 384 := o.isLt
  have hrow : t.val * 4000 + p.val < 400000 := by omega
  -- the output block's entry (p, o) is the array's entry (4000 t + p, o)
  have hemb : ((cfg1.win 4).blk t).view.emb (ix2 p o) = ix2 (⟨t.val * 4000 + p.val, hrow⟩ : Fin 400000) o := by
    funext a; apply Fin.ext
    match a with
    | ⟨0, _⟩ => show win1_4.index t (0 : Fin 2) * 4000 + 1 * p.val = t.val * 4000 + p.val; omega
    | ⟨1, _⟩ => show win1_4.index t (1 : Fin 2) * 384 + 1 * o.val = o.val; omega
  show _ = Cert.Spec.rbf (V c main_arg4) (V c main_v6) (V c main_v2) (V c main_v5) (((cfg1.win 4).blk t).view.emb (ix2 p o))
  refine Eq.trans ?_ (congrArg (Cert.Spec.rbf (V c main_arg4) (V c main_v6) (V c main_v2) (V c main_v5)) hemb).symm
  -- each input block read where the output's entry says
  have h0 : ∀ j : Fin 20, Gen.iblk1 V c 0 t (ix2 p j) = V c main_arg4 (ix2 (⟨t.val * 4000 + p.val, hrow⟩ : Fin 400000) j) := fun j => by
    have hj : j.val < 20 := j.isLt
    show V c main_arg4 (((cfg1.win 0).blk t).view.emb (ix2 p j)) = _
    refine congrArg _ ?_
    funext a; apply Fin.ext
    match a with
    | ⟨0, _⟩ => show win1_0.index t (0 : Fin 2) * 4000 + 1 * p.val = t.val * 4000 + p.val; omega
    | ⟨1, _⟩ => show win1_0.index t (1 : Fin 2) * 20 + 1 * j.val = j.val; omega
  have h1 : Gen.iblk1 V c 1 t (ix2 p (0 : Fin 1)) = V c main_v6 (ix2 (⟨t.val * 4000 + p.val, hrow⟩ : Fin 400000) (0 : Fin 1)) := by
    show V c main_v6 (((cfg1.win 1).blk t).view.emb (ix2 p (0 : Fin 1))) = _
    refine congrArg _ ?_
    funext a; apply Fin.ext
    match a with
    | ⟨0, _⟩ => show win1_1.index t (0 : Fin 2) * 4000 + 1 * p.val = t.val * 4000 + p.val; omega
    | ⟨1, _⟩ => show win1_1.index t (1 : Fin 2) * 1 + 1 * 0 = 0; omega
  have h2 : ∀ j : Fin 20, Gen.iblk1 V c 2 t (ix2 j o) = V c main_v2 (ix2 j o) := fun j => by
    have hj : j.val < 20 := j.isLt
    show V c main_v2 (((cfg1.win 2).blk t).view.emb (ix2 j o)) = _
    refine congrArg _ ?_
    funext a; apply Fin.ext
    match a with
    | ⟨0, _⟩ => show win1_2.index t (0 : Fin 2) * 20 + 1 * j.val = j.val; omega
    | ⟨1, _⟩ => show win1_2.index t (1 : Fin 2) * 384 + 1 * o.val = o.val; omega
  have h3 : Gen.iblk1 V c 3 t (ix2 (0 : Fin 1) o) = V c main_v5 (ix2 (0 : Fin 1) o) := by
    show V c main_v5 (((cfg1.win 3).blk t).view.emb (ix2 (0 : Fin 1) o)) = _
    refine congrArg _ ?_
    funext a; apply Fin.ext
    match a with
    | ⟨0, _⟩ => show win1_3.index t (0 : Fin 2) * 1 + 1 * 0 = 0; omega
    | ⟨1, _⟩ => show win1_3.index t (1 : Fin 2) * 384 + 1 * o.val = o.val; omega
  show Cert.Spec.rbfAt (N := 4000) (Gen.iblk1 V c 0 t) (Gen.iblk1 V c 1 t) (Gen.iblk1 V c 2 t) (Gen.iblk1 V c 3 t) p o
    = Cert.Spec.rbfAt (N := 400000) (V c main_arg4) (V c main_v6) (V c main_v2) (V c main_v5) (⟨t.val * 4000 + p.val, hrow⟩ : Fin 400000) o
  unfold Cert.Spec.rbfAt
  exact congrArg₂ (· * ·) (congrArg₂ (· + ·) (Finset.sum_congr rfl fun j _ => congrArg₂ (· * ·) (h0 j) (h2 j)) h3) h1

/-- An index of the array is in point `t`'s block iff each coordinate is in the block's range on its axis. -/
theorem mem_blk (t : Fin cfg1.N) (i : S400000x384.Idx) :
    i ∈ ((cfg1.win 4).blk t).view.set ↔ ∀ a : Fin 2, win1_4.index t a * S4000x384.size a ≤ (i a).val
      ∧ (i a).val < win1_4.index t a * S4000x384.size a + S4000x384.size a := by
  show i ∈ ((View.whole main_v8).slice (win1_4.rect t)).set ↔ _
  rw [View.set_slice_whole, Rect.mem_set_unit]
  exact Iff.rfl

/-- The 100 row blocks tile the array: row `r` lies in the block of point `r / 4000`, which is written back. -/
theorem covered (i : S400000x384.Idx) :
    ∃ t : Fin cfg1.N, (cfg1.win 4).flush t = true ∧ i ∈ ((cfg1.win 4).blk t).view.set := by
  have hi0 : (i 0).val < 400000 := idx2_lt0 i
  have hi1 : (i 1).val < 384 := idx2_lt1 i
  obtain ⟨t, ht⟩ : ∃ t : Fin cfg1.N, t.val = (i 0).val / 4000 :=
    ⟨⟨(i 0).val / 4000, by show (i 0).val / 4000 < grid1.N; rw [Gen.N_1]; omega⟩, rfl⟩
  obtain ⟨e0, e1, e2, e3, e4, e5, e6, e7, e8, e9⟩ := idx_facts t
  refine ⟨t, Gen.flush1_4 t, ?_⟩
  rw [mem_blk]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 384 ≤ (i 1).val ∧ (i 1).val < win1_4.index t (1 : Fin 2) * 384 + 384
    omega

/-- After region 1 its output array is the gated projection of the arrays the region found, whatever they are. -/
theorem final (c : Dev nD) :
    (Gen.dat1 (F := Ideal) V c).arrAt 4 cfg1.N
      = Cert.Spec.rbf (V c main_arg4) (V c main_v6) (V c main_v2) (V c main_v5) :=
  (Gen.dat1 V c).arrAt_eq_of_cover 4 (Cert.Spec.rbf (V c main_arg4) (V c main_v6) (V c main_v2) (V c main_v5))
    (fun t _ => flushed_eq V c t) covered

end Region

end Cert.RbfRegion

end
-- ==== Proof.CombineRegion.lean ====
/-
  What the third region (the combination of gathered node features with edge weights) leaves in its two output arrays,
  each as one function of the arrays the region finds on entry.

  The region cuts the 400000 edges into 400 blocks of 1000. At each block the body forms the entrywise product
  `q = p ⊙ w` of two 1000 × 384 blocks and cuts it into three bands of 128 columns. The scalar output is the middle
  band. The vector output at `(e, k, f)` is `v (e, k, f) · q (e, f) + r (e, k) · q (e, 256 + f)`: the first band is
  repeated along the component axis `k`, the 1000 × 3 block `r` is repeated along the feature axis `f`. Every entry
  of either output depends only on entries of the same row `e`, every output block is written back, and the blocks
  tile the arrays; so each array ends as that formula of the whole input arrays.
-/
import proofs.«123346_j82308753261028_2_alg».proof.Proof.Gen.KernelIdeal.Frame
import proofs.«123346_j82308753261028_2_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.CombineRegion

open Cert.KernelIdeal Cert.KernelIdeal.Gen Idealize.ShloMosaic Idealize.ShloMosaic.ValueIdx
open Idealize.ShloMosaic.TcCoe Idealize.SL.Sem
open Idealize.ShloMosaic.Pipeline (Dat Cfg Window)

/-! ## The body's values at one entry of a block -/

/-- The entrywise product of the two loaded blocks. -/
theorem prod_apply (x0 x2 : Vec Ideal S1000x384 .f32) (j : S1000x384.Idx) :
    Gen.k2_pay1 (F := Ideal) x0 x2 j = x0 j * x2 j := by
  unfold Gen.k2_pay1
  simp only [shapeCast_self]
  rfl

/-- The scalar output at row `p`, feature `f` of a block: the product's entry in column `128 + f`. -/
theorem scal_pay_apply (x0 x2 : Vec Ideal S1000x384 .f32) (p : Fin 1000) (f : Fin 128) :
    Gen.k2_pay2 (F := Ideal) x0 x2 (ix2 p f) = Cert.Spec.scalAt (N := 1000) x0 x2 p f := by
  unfold Gen.k2_pay2 Cert.Spec.scalAt
  refine (slice2_axis1_apply 128 (Gen.k2_pay1 (F := Ideal) x0 x2) slices_S1000x384_o0_128_S1000x128 p f
    (Cert.Spec.col 128 (by omega) f) rfl).trans ?_
  exact prod_apply x0 x2 _

/-- A `[a, b]` array recast to `[a, 1, b]` reads, at `(p, 0, c)`, the array at `(p, c)`. -/
theorem shapeCast_ab_a1b_apply {α : Type} {a b : ℕ} (x : (⟨2, ![a, b]⟩ : Shape).Idx → α)
    (h : (⟨2, ![a, b]⟩ : Shape).ShapeCasts ⟨3, ![a, 1, b]⟩) (p : Fin a) (c : Fin b) :
    shapeCast ⟨3, ![a, 1, b]⟩ x h (ix3 p (0 : Fin 1) c) = x (ix2 p c) := by
  refine shapeCast_apply x h (ix3 p (0 : Fin 1) c) (ix2 p c) ?_
  rw [Shape.rowMajor_val_two, Shape.rowMajor_val_three]
  show p.val * b + c.val = (p.val * 1 + 0) * b + c.val
  rw [Nat.mul_one, Nat.add_zero]

/-- A `[a, b]` array recast to `[a, b, 1]` reads, at `(p, k, 0)`, the array at `(p, k)`. -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (k : Fin b) :
    shapeCast ⟨3, ![a, b, 1]⟩ x h (ix3 p k (0 : Fin 1)) = x (ix2 p k) := by
  refine shapeCast_apply x h (ix3 p k (0 : Fin 1)) (ix2 p k) ?_
  rw [Shape.rowMajor_val_two, Shape.rowMajor_val_three]
  show p.val * b + k.val = (p.val * b + k.val) * 1 + 0
  rw [Nat.mul_one, Nat.add_zero]

/-- An `[a, 1, b]` array repeated along its middle axis to `[a, n, b]` reads, at `(p, k, c)`, the array at `(p, 0, c)`. -/
theorem broadcastTo_a1b_anb_apply {α : Type} {a n b : ℕ} (hn : n ≠ 0) (v : (⟨3, ![a, 1, b]⟩ : Shape).Idx → α)
    (h : (⟨3, ![a, 1, b]⟩ : Shape).Broadcasts ⟨3, ![a, n, b]⟩) (p : Fin a) (k : Fin n) (c : Fin b) :
    broadcastTo ⟨3, ![a, n, b]⟩ v h (ix3 p k c) = v (ix3 p (0 : Fin 1) c) := by
  refine broadcastTo_apply v h (ix3 p k c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- An `[a, n, 1]` array repeated along its last axis to `[a, n, b]` reads, at `(p, k, c)`, the array at `(p, k, 0)`. -/
theorem broadcastTo_an1_anb_apply {α : Type} {a n b : ℕ} (v : (⟨3, ![a, n, 1]⟩ : Shape).Idx → α)
    (h : (⟨3, ![a, n, 1]⟩ : Shape).Broadcasts ⟨3, ![a, n, b]⟩) (p : Fin a) (k : Fin n) (c : Fin b) :
    broadcastTo ⟨3, ![a, n, b]⟩ v h (ix3 p k c) = v (ix3 p k (0 : Fin 1)) := by
  refine broadcastTo_apply v h (ix3 p k c) (ix3 p k (0 : Fin 1)) fun ax => ?_
  match ax with
  | ⟨0, _⟩ =>
    show p.val = if a = 1 then 0 else p.val
    split
    · have := p.isLt; omega
    · rfl
  | ⟨1, _⟩ =>
    show k.val = if n = 1 then 0 else k.val
    split
    · have := k.isLt; omega
    · rfl
  | ⟨2, _⟩ => rfl

/-- The vector output at row `p`, component `k`, feature `f` of a block. -/
theorem vec_pay_apply (x0 x2 : Vec Ideal S1000x384 .f32) (x8 : Vec Ideal S1000x3x128 .f32) (x10 : Vec Ideal S1000x3 .f32)
    (p : Fin 1000) (k : Fin 3) (f : Fin 128) :
    Gen.k2_pay3 (F := Ideal) x0 x2 x8 x10 (ix3 p k f) = Cert.Spec.vecAt (N := 1000) x0 x2 x8 x10 p k f := by
  unfold Gen.k2_pay3 Cert.Spec.vecAt
  simp only [shapeCast_self]
  rw [addf_apply, mulf_apply, mulf_apply, broadcastTo_a1b_anb_apply (by decide), broadcastTo_a1b_anb_apply (by decide),
    broadcastTo_an1_anb_apply, shapeCast_ab_a1b_apply, shapeCast_ab_a1b_apply, shapeCast_ab_ab1_apply,
    slice2_axis1_apply 0 (Gen.k2_pay1 (F := Ideal) x0 x2) slices_S1000x384_o0_0_S1000x128 p f (Cert.Spec.col 0 (by omega) f) rfl,
    slice2_axis1_apply 256 (Gen.k2_pay1 (F := Ideal) x0 x2) slices_S1000x384_o0_256_S1000x128 p f (Cert.Spec.col 256 (by omega) f) rfl,
    prod_apply, prod_apply]

/-! ## From blocks to arrays -/

theorem hz2 : (![0, 0] : Fin 2 → Nat) = fun _ => 0 := funext fun a => by fin_cases a <;> rfl
theorem hz3 : (![0, 0, 0] : Fin 3 → Nat) = fun _ => 0 := funext fun a => by fin_cases a <;> rfl

/-- Every window of the region moves one block of 1000 rows per grid point and is whole on its other axes: the block
    index is `(t, 0)` or `(t, 0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 3) = t.val ∧ win2_2.index t (1 : Fin 3) = 0 ∧ win2_2.index t (2 : Fin 3) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

variable (V : (c : Dev nD) → (b : Ref sig .tc) → Buf (Elt Ideal) ((c : Thread nD τ).loc b))

/-! ### An input block's entry is the array's entry in row `1000 t + p` -/

theorem read0 (c : Dev nD) (t : Fin cfg2.N) (p : Fin 1000) (o : Fin 384) (e : Fin 400000) (he : e.val = t.val * 1000 + p.val) :
    iblk2 V c 0 t (ix2 p o) = V c main_v15 (ix2 e o) := by
  show V c main_v15 (((cfg2.win 0).blk t).view.emb (ix2 p o)) = V c main_v15 (ix2 e o)
  refine congrArg (V c main_v15) ?_
  funext a; apply Fin.ext
  obtain ⟨e0, e1, -⟩ := idx_facts t
  match a with
  | ⟨0, _⟩ => show win2_0.index t (0 : Fin 2) * 1000 + 1 * p.val = e.val; omega
  | ⟨1, _⟩ => show win2_0.index t (1 : Fin 2) * 384 + 1 * o.val = o.val; omega

theorem read1 (c : Dev nD) (t : Fin cfg2.N) (p : Fin 1000) (o : Fin 384) (e : Fin 400000) (he : e.val = t.val * 1000 + p.val) :
    iblk2 V c 1 t (ix2 p o) = V c main_v8 (ix2 e o) := by
  show V c main_v8 (((cfg2.win 1).blk t).view.emb (ix2 p o)) = V c main_v8 (ix2 e o)
  refine congrArg (V c main_v8) ?_
  funext a; apply Fin.ext
  obtain ⟨-, -, e0, e1, -⟩ := idx_facts t
  match a with
  | ⟨0, _⟩ => show win2_1.index t (0 : Fin 2) * 1000 + 1 * p.val = e.val; omega
  | ⟨1, _⟩ => show win2_1.index t (1 : Fin 2) * 384 + 1 * o.val = o.val; omega

theorem read2 (c : Dev nD) (t : Fin cfg2.N) (p : Fin 1000) (k : Fin 3) (f : Fin 128) (e : Fin 400000)
    (he : e.val = t.val * 1000 + p.val) :
    iblk2 V c 2 t (ix3 p k f) = V c main_v23 (ix3 e k f) := by
  show V c main_v23 (((cfg2.win 2).blk t).view.emb (ix3 p k f)) = V c main_v23 (ix3 e k f)
  refine congrArg (V c main_v23) ?_
  funext a; apply Fin.ext
  obtain ⟨-, -, -, -, e0, e1, e2, -⟩ := idx_facts t
  match a with
  | ⟨0, _⟩ => show win2_2.index t (0 : Fin 3) * 1000 + 1 * p.val = e.val; omega
  | ⟨1, _⟩ => show win2_2.index t (1 : Fin 3) * 3 + 1 * k.val = k.val; omega
  | ⟨2, _⟩ => show win2_2.index t (2 : Fin 3) * 128 + 1 * f.val = f.val; omega

theorem read3 (c : Dev nD) (t : Fin cfg2.N) (p : Fin 1000) (k : Fin 3) (e : Fin 400000) (he : e.val = t.val * 1000 + p.val) :
    iblk2 V c 3 t (ix2 p k) = V c main_arg2 (ix2 e k) := by
  show V c main_arg2 (((cfg2.win 3).blk t).view.emb (ix2 p k)) = V c main_arg2 (ix2 e k)
  refine congrArg (V c main_arg2) ?_
  funext a; apply Fin.ext
  obtain ⟨-, -, -, -, -, -, -, e0, e1, -⟩ := idx_facts t
  match a with
  | ⟨0, _⟩ => show win2_3.index t (0 : Fin 2) * 1000 + 1 * p.val = e.val; omega
  | ⟨1, _⟩ => show win2_3.index t (1 : Fin 2) * 3 + 1 * k.val = k.val; omega

/-! ### What a grid point writes back is its block of the whole-array formula -/

/-- The scalar output: point `t` writes back rows `1000 t … 1000 t + 999` of the scalar messages of the whole arrays. -/
theorem flushed4_eq (c : Dev nD) (t : Fin cfg2.N) :
    (dat2 V c).flushed 4 t
      = ((cfg2.win 4).blk t).view.read (Elt Ideal) (Cert.Spec.scal (V c main_v15) (V c main_v8)) := by
  show (cfg2.win 4).cut (grid2.coords t) ((dat2 V c).after 4 t) = _
  rw [after2_4]
  unfold out2_4
  rw [View.canon_unit_zero hz2]
  simp only [View.ld_unit_zero (S := S1000x384) hz2]
  funext y
  obtain ⟨p, f, rfl⟩ : ∃ (p : Fin 1000) (f : Fin 128), y = ix2 p f := ⟨y 0, y 1, eq_ix2 y⟩
  have hN : t.val < 400 := t.isLt.trans_eq (show cfg2.N = 400 from N_2)
  obtain ⟨-, -, -, -, -, -, -, -, -, e0, e1, -⟩ := idx_facts t
  have hr : ((cfg2.win 4).blk t).view.emb (ix2 p f) = ix2 (⟨t.val * 1000 + p.val, by have := p.isLt; omega⟩ : Fin 400000) f := by
    funext a; apply Fin.ext
    match a with
    | ⟨0, _⟩ => show win2_4.index t (0 : Fin 2) * 1000 + 1 * p.val = t.val * 1000 + p.val; omega
    | ⟨1, _⟩ => show win2_4.index t (1 : Fin 2) * 128 + 1 * f.val = f.val; omega
  refine (scal_pay_apply (iblk2 V c 0 t) (iblk2 V c 1 t) p f).trans ?_
  show _ = Cert.Spec.scal (V c main_v15) (V c main_v8) (((cfg2.win 4).blk t).view.emb (ix2 p f))
  rw [hr, Cert.Spec.scal_apply]
  unfold Cert.Spec.scalAt
  rw [read0 V c t p _ ⟨t.val * 1000 + p.val, by have := p.isLt; omega⟩ rfl,
    read1 V c t p _ ⟨t.val * 1000 + p.val, by have := p.isLt; omega⟩ rfl]

/-- The vector output: point `t` writes back rows `1000 t … 1000 t + 999` of the vector messages of the whole arrays. -/
theorem flushed5_eq (c : Dev nD) (t : Fin cfg2.N) :
    (dat2 V c).flushed 5 t
      = ((cfg2.win 5).blk t).view.read (Elt Ideal)
          (Cert.Spec.vec (V c main_v15) (V c main_v8) (V c main_v23) (V c main_arg2)) := by
  show (cfg2.win 5).cut (grid2.coords t) ((dat2 V c).after 5 t) = _
  rw [after2_5]
  unfold out2_5
  rw [View.canon_unit_zero hz3]
  simp only [View.ld_unit_zero (S := S1000x384) hz2, View.ld_unit_zero (S := S1000x3x128) hz3,
    View.ld_unit_zero (S := S1000x3) hz2]
  funext y
  obtain ⟨p, k, f, rfl⟩ : ∃ (p : Fin 1000) (k : Fin 3) (f : Fin 128), y = ix3 p k f := ⟨y 0, y 1, y 2, eq_ix3 y⟩
  have hN : t.val < 400 := t.isLt.trans_eq (show cfg2.N = 400 from N_2)
  obtain ⟨-, -, -, -, -, -, -, -, -, -, -, e0, e1, e2⟩ := idx_facts t
  have hr : ((cfg2.win 5).blk t).view.emb (ix3 p k f)
      = ix3 (⟨t.val * 1000 + p.val, by have := p.isLt; omega⟩ : Fin 400000) k f := by
    funext a; apply Fin.ext
    match a with
    | ⟨0, _⟩ => show win2_5.index t (0 : Fin 3) * 1000 + 1 * p.val = t.val * 1000 + p.val; omega
    | ⟨1, _⟩ => show win2_5.index t (1 : Fin 3) * 3 + 1 * k.val = k.val; omega
    | ⟨2, _⟩ => show win2_5.index t (2 : Fin 3) * 128 + 1 * f.val = f.val; omega
  refine (vec_pay_apply (iblk2 V c 0 t) (iblk2 V c 1 t) (iblk2 V c 2 t) (iblk2 V c 3 t) p k f).trans ?_
  show _ = Cert.Spec.vec (V c main_v15) (V c main_v8) (V c main_v23) (V c main_arg2) (((cfg2.win 5).blk t).view.emb (ix3 p k f))
  rw [hr, Cert.Spec.vec_apply]
  unfold Cert.Spec.vecAt
  rw [read0 V c t p _ ⟨t.val * 1000 + p.val, by have := p.isLt; omega⟩ rfl,
    read1 V c t p _ ⟨t.val * 1000 + p.val, by have := p.isLt; omega⟩ rfl,
    read0 V c t p _ ⟨t.val * 1000 + p.val, by have := p.isLt; omega⟩ rfl,
    read1 V c t p _ ⟨t.val * 1000 + p.val, by have := p.isLt; omega⟩ rfl,
    read2 V c t p k f ⟨t.val * 1000 + p.val, by have := p.isLt; omega⟩ rfl,
    read3 V c t p k ⟨t.val * 1000 + p.val, by have := p.isLt; omega⟩ rfl]

/-! ### The blocks tile the arrays -/

theorem mem_blk4 (t : Fin cfg2.N) (i : S400000x128.Idx) :
    i ∈ ((cfg2.win 4).blk t).view.set
      ↔ ∀ a : Fin 2, win2_4.index t a * S1000x128.size a ≤ (i a).val ∧ (i a).val < win2_4.index t a * S1000x128.size a + S1000x128.size a := by
  show i ∈ ((View.whole main_v24_0).slice (win2_4.rect t)).set ↔ _
  rw [View.set_slice_whole, Rect.mem_set_unit]
  exact Iff.rfl

theorem mem_blk5 (t : Fin cfg2.N) (i : S400000x3x128.Idx) :
    i ∈ ((cfg2.win 5).blk t).view.set
      ↔ ∀ a : Fin 3, win2_5.index t a * S1000x3x128.size a ≤ (i a).val ∧ (i a).val < win2_5.index t a * S1000x3x128.size a + S1000x3x128.size a := by
  show i ∈ ((View.whole main_v24_1).slice (win2_5.rect t)).set ↔ _
  rw [View.set_slice_whole, Rect.mem_set_unit]
  exact Iff.rfl

/-- Row `r` of the scalar output lies in the block of point `r / 1000`. -/
theorem cover4 (i : S400000x128.Idx) :
    ∃ t : Fin cfg2.N, (cfg2.win 4).flush t = true ∧ i ∈ ((cfg2.win 4).blk t).view.set := by
  have hi0 : (i 0).val < 400000 := (i 0).isLt
  have hi1 : (i 1).val < 128 := (i 1).isLt
  have hN : cfg2.N = 400 := N_2
  let t : Fin cfg2.N := ⟨(i 0).val / 1000, by rw [hN]; omega⟩
  have ht : t.val = (i 0).val / 1000 := rfl
  obtain ⟨-, -, -, -, -, -, -, -, -, e0, e1, -⟩ := idx_facts t
  refine ⟨t, flush2_4 t, ?_⟩
  rw [mem_blk4]
  intro a
  match a with
  | ⟨0, _⟩ => show win2_4.index t (0 : Fin 2) * 1000 ≤ (i 0).val ∧ (i 0).val < win2_4.index t (0 : Fin 2) * 1000 + 1000; omega
  | ⟨1, _⟩ => show win2_4.index t (1 : Fin 2) * 128 ≤ (i 1).val ∧ (i 1).val < win2_4.index t (1 : Fin 2) * 128 + 128; omega

/-- Row `r` of the vector output lies in the block of point `r / 1000`. -/
theorem cover5 (i : S400000x3x128.Idx) :
    ∃ t : Fin cfg2.N, (cfg2.win 5).flush t = true ∧ i ∈ ((cfg2.win 5).blk t).view.set := by
  have hi0 : (i 0).val < 400000 := (i 0).isLt
  have hi1 : (i 1).val < 3 := (i 1).isLt
  have hi2 : (i 2).val < 128 := (i 2).isLt
  have hN : cfg2.N = 400 := N_2
  let t : Fin cfg2.N := ⟨(i 0).val / 1000, by rw [hN]; omega⟩
  have ht : t.val = (i 0).val / 1000 := rfl
  obtain ⟨-, -, -, -, -, -, -, -, -, -, -, e0, e1, e2⟩ := idx_facts t
  refine ⟨t, flush2_5 t, ?_⟩
  rw [mem_blk5]
  intro a
  match a with
  | ⟨0, _⟩ => show win2_5.index t (0 : Fin 3) * 1000 ≤ (i 0).val ∧ (i 0).val < win2_5.index t (0 : Fin 3) * 1000 + 1000; omega
  | ⟨1, _⟩ => show win2_5.index t (1 : Fin 3) * 3 ≤ (i 1).val ∧ (i 1).val < win2_5.index t (1 : Fin 3) * 3 + 3; omega
  | ⟨2, _⟩ => show win2_5.index t (2 : Fin 3) * 128 ≤ (i 2).val ∧ (i 2).val < win2_5.index t (2 : Fin 3) * 128 + 128; omega

/-! ### The arrays after the region -/

/-- After the region the scalar output array is the scalar messages of the arrays the region found. -/
theorem final4 (c : Dev nD) :
    (dat2 V c).arrAt 4 cfg2.N = Cert.Spec.scal (V c main_v15) (V c main_v8) :=
  (dat2 V c).arrAt_eq_of_cover 4 (Cert.Spec.scal (V c main_v15) (V c main_v8)) (fun t _ => flushed4_eq V c t) cover4

/-- After the region the vector output array is the vector messages of the arrays the region found. -/
theorem final5 (c : Dev nD) :
    (dat2 V c).arrAt 5 cfg2.N = Cert.Spec.vec (V c main_v15) (V c main_v8) (V c main_v23) (V c main_arg2) :=
  (dat2 V c).arrAt_eq_of_cover 5 (Cert.Spec.vec (V c main_v15) (V c main_v8) (V c main_v23) (V c main_arg2))
    (fun t _ => flushed5_eq V c t) cover5

end Cert.CombineRegion

end
-- ==== Proof.Walk.lean ====
/-
  The program's buffers followed through its run. The run is a fold of the launch memory through six segments: a
  stretch of host operations (transposes and reshapes of the weights), the perceptron's region, the projection's region,
  a stretch of host operations (the two row gathers), the combination's region, and a last stretch (the two accumulating
  scatters, a transpose and the two final additions). A buffer that a segment does not write keeps its contents through
  the segment; a region's output array ends at its whole-array formula of the region's inputs; a host operation's result
  is its function of its operands. Following the two result buffers back to the launch memory this way gives the two
  result terms.
-/
import proofs.«123346_j82308753261028_2_alg».proof.Proof.Gen.KernelIdeal.Frame
import proofs.«123346_j82308753261028_2_alg».proof.Proof.Result
import proofs.«123346_j82308753261028_2_alg».proof.Proof.MlpRegion
import proofs.«123346_j82308753261028_2_alg».proof.Proof.RbfRegion
import proofs.«123346_j82308753261028_2_alg».proof.Proof.CombineRegion
import Idealize.ShloMosaic.Lib.StableHlo.Run

set_option maxRecDepth 16384

noncomputable section

namespace Cert.Walk

open Cert.KernelIdeal Cert.KernelIdeal.Gen Idealize.ShloMosaic Idealize.ShloMosaic.TcCoe Idealize.SL.Sem
open Idealize.ShloMosaic.StableHlo
open Idealize.ShloMosaic.Pipeline (Dat Cfg Window)

/-- A stretch of host operations leaves a buffer none of them writes as it found it. -/
macro "not_written " ops:ident ", " b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## The argument arrays through the fold -/

theorem W1_arg0 : W1 m ρ c (Proc.devRef .tc main_arg0) = m ((c : Thread nD τ).loc main_arg0) := by
  refine Eq.trans ?_ (rfl : W0 m ρ c (Proc.devRef .tc main_arg0) = _)
  not_written hostOps0, main_arg0
theorem W1_arg1 : W1 m ρ c (Proc.devRef .tc main_arg1) = m ((c : Thread nD τ).loc main_arg1) := by
  refine Eq.trans ?_ (rfl : W0 m ρ c (Proc.devRef .tc main_arg1) = _)
  not_written hostOps0, main_arg1
theorem W1_arg2 : W1 m ρ c (Proc.devRef .tc main_arg2) = m ((c : Thread nD τ).loc main_arg2) := by
  refine Eq.trans ?_ (rfl : W0 m ρ c (Proc.devRef .tc main_arg2) = _)
  not_written hostOps0, main_arg2
theorem W1_arg4 : W1 m ρ c (Proc.devRef .tc main_arg4) = m ((c : Thread nD τ).loc main_arg4) := by
  refine Eq.trans ?_ (rfl : W0 m ρ c (Proc.devRef .tc main_arg4) = _)
  not_written hostOps0, main_arg4
theorem W1_arg5 : W1 m ρ c (Proc.devRef .tc main_arg5) = m ((c : Thread nD τ).loc main_arg5) := by
  refine Eq.trans ?_ (rfl : W0 m ρ c (Proc.devRef .tc main_arg5) = _)
  not_written hostOps0, main_arg5
theorem W1_arg6 : W1 m ρ c (Proc.devRef .tc main_arg6) = m ((c : Thread nD τ).loc main_arg6) := by
  refine Eq.trans ?_ (rfl : W0 m ρ c (Proc.devRef .tc main_arg6) = _)
  not_written hostOps0, main_arg6
theorem W2_arg0 : W2 m ρ c (Proc.devRef .tc main_arg0) = m ((c : Thread nD τ).loc main_arg0) :=
  (W2_of_ne m ρ c main_arg0 (by decide)).trans (W1_arg0 m ρ c)
theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg4 : W2 m ρ c (Proc.devRef .tc main_arg4) = m ((c : Thread nD τ).loc main_arg4) :=
  (W2_of_ne m ρ c main_arg4 (by decide)).trans (W1_arg4 m ρ c)
theorem W2_arg6 : W2 m ρ c (Proc.devRef .tc main_arg6) = m ((c : Thread nD τ).loc main_arg6) :=
  (W2_of_ne m ρ c main_arg6 (by decide)).trans (W1_arg6 m ρ c)
theorem W2_arg5 : W2 m ρ c (Proc.devRef .tc main_arg5) = m ((c : Thread nD τ).loc main_arg5) :=
  ((W2_arr m ρ c 0).trans (((dat0 (V1 m ρ) c).arrAt_in 0 rfl _).trans (A_eq0 (V1 m ρ) c 0))).trans (W1_arg5 m ρ c)
theorem W3_arg0 : W3 m ρ c (Proc.devRef .tc main_arg0) = m ((c : Thread nD τ).loc main_arg0) :=
  (W3_of_ne m ρ c main_arg0 (by decide)).trans (W2_arg0 m ρ c)
theorem W3_arg1 : W3 m ρ c (Proc.devRef .tc main_arg1) = m ((c : Thread nD τ).loc main_arg1) :=
  (W3_of_ne m ρ c main_arg1 (by decide)).trans (W2_arg1 m ρ c)
theorem W3_arg2 : W3 m ρ c (Proc.devRef .tc main_arg2) = m ((c : Thread nD τ).loc main_arg2) :=
  (W3_of_ne m ρ c main_arg2 (by decide)).trans (W2_arg2 m ρ c)
theorem W3_arg5 : W3 m ρ c (Proc.devRef .tc main_arg5) = m ((c : Thread nD τ).loc main_arg5) :=
  (W3_of_ne m ρ c main_arg5 (by decide)).trans (W2_arg5 m ρ c)
theorem W3_arg6 : W3 m ρ c (Proc.devRef .tc main_arg6) = m ((c : Thread nD τ).loc main_arg6) :=
  (W3_of_ne m ρ c main_arg6 (by decide)).trans (W2_arg6 m ρ c)
theorem W4_arg0 : W4 m ρ c (Proc.devRef .tc main_arg0) = m ((c : Thread nD τ).loc main_arg0) := by
  refine Eq.trans ?_ (W3_arg0 m ρ c)
  not_written hostOps2, main_arg0
theorem W4_arg2 : W4 m ρ c (Proc.devRef .tc main_arg2) = m ((c : Thread nD τ).loc main_arg2) := by
  refine Eq.trans ?_ (W3_arg2 m ρ c)
  not_written hostOps2, main_arg2
theorem W4_arg5 : W4 m ρ c (Proc.devRef .tc main_arg5) = m ((c : Thread nD τ).loc main_arg5) := by
  refine Eq.trans ?_ (W3_arg5 m ρ c)
  not_written hostOps2, main_arg5
theorem W4_arg6 : W4 m ρ c (Proc.devRef .tc main_arg6) = m ((c : Thread nD τ).loc main_arg6) := by
  refine Eq.trans ?_ (W3_arg6 m ρ c)
  not_written hostOps2, main_arg6
theorem W5_arg0 : W5 m ρ c (Proc.devRef .tc main_arg0) = m ((c : Thread nD τ).loc main_arg0) :=
  (W5_of_ne m ρ c main_arg0 (by decide)).trans (W4_arg0 m ρ c)
theorem W5_arg5 : W5 m ρ c (Proc.devRef .tc main_arg5) = m ((c : Thread nD τ).loc main_arg5) :=
  (W5_of_ne m ρ c main_arg5 (by decide)).trans (W4_arg5 m ρ c)
theorem W5_arg6 : W5 m ρ c (Proc.devRef .tc main_arg6) = m ((c : Thread nD τ).loc main_arg6) :=
  (W5_of_ne m ρ c main_arg6 (by decide)).trans (W4_arg6 m ρ c)

/-! ## The first stretch: the weights transposed, the biases and the distances as rows and a column -/

theorem W1_v0 : W1 m ρ c (Proc.devRef .tc main_v0) = transpose S128x128 [1, 0] (m ((c : Thread nD τ).loc main_arg7)) transposes_S128x128_S128x128_1_0 := by
  show StableHlo.after hostOps0 (W0 m ρ c) (Proc.devRef .tc main_v0) = _
  after_results
theorem W1_v1 : W1 m ρ c (Proc.devRef .tc main_v1) = transpose S128x384 [1, 0] (m ((c : Thread nD τ).loc main_arg9)) transposes_S384x128_S128x384_1_0 := by
  show StableHlo.after hostOps0 (W0 m ρ c) (Proc.devRef .tc main_v1) = _
  after_results
theorem W1_v2 : W1 m ρ c (Proc.devRef .tc main_v2) = transpose S20x384 [1, 0] (m ((c : Thread nD τ).loc main_arg11)) transposes_S384x20_S20x384_1_0 := by
  show StableHlo.after hostOps0 (W0 m ρ c) (Proc.devRef .tc main_v2) = _
  after_results
theorem W1_v3 : W1 m ρ c (Proc.devRef .tc main_v3) = shapeCast S1x128 (m ((c : Thread nD τ).loc main_arg8)) shapeCasts_S128_S1x128 := by
  show StableHlo.after hostOps0 (W0 m ρ c) (Proc.devRef .tc main_v3) = _
  after_results; rfl
theorem W1_v4 : W1 m ρ c (Proc.devRef .tc main_v4) = shapeCast S1x384 (m ((c : Thread nD τ).loc main_arg10)) shapeCasts_S384_S1x384 := by
  show StableHlo.after hostOps0 (W0 m ρ c) (Proc.devRef .tc main_v4) = _
  after_results; rfl
theorem W1_v5 : W1 m ρ c (Proc.devRef .tc main_v5) = shapeCast S1x384 (m ((c : Thread nD τ).loc main_arg12)) shapeCasts_S384_S1x384 := by
  show StableHlo.after hostOps0 (W0 m ρ c) (Proc.devRef .tc main_v5) = _
  after_results; rfl
theorem W1_v6 : W1 m ρ c (Proc.devRef .tc main_v6) = shapeCast S400000x1 (m ((c : Thread nD τ).loc main_arg3)) shapeCasts_S400000_S400000x1 := by
  show StableHlo.after hostOps0 (W0 m ρ c) (Proc.devRef .tc main_v6) = _
  after_results; rfl

theorem W2_v2 : W2 m ρ c (Proc.devRef .tc main_v2) = transpose S20x384 [1, 0] (m ((c : Thread nD τ).loc main_arg11)) transposes_S384x20_S20x384_1_0 :=
  (W2_of_ne m ρ c main_v2 (by decide)).trans (W1_v2 m ρ c)
theorem W2_v5 : W2 m ρ c (Proc.devRef .tc main_v5) = shapeCast S1x384 (m ((c : Thread nD τ).loc main_arg12)) shapeCasts_S384_S1x384 :=
  (W2_of_ne m ρ c main_v5 (by decide)).trans (W1_v5 m ρ c)
theorem W2_v6 : W2 m ρ c (Proc.devRef .tc main_v6) = shapeCast S400000x1 (m ((c : Thread nD τ).loc main_arg3)) shapeCasts_S400000_S400000x1 :=
  (W2_of_ne m ρ c main_v6 (by decide)).trans (W1_v6 m ρ c)

/-! ## The two dense regions -/

/-- After the first two regions the perceptron's array holds `phi`. -/
theorem phi_at : W3 m ρ c (Proc.devRef .tc main_v7) = Res.phi m c := by
  refine (W3_of_ne m ρ c main_v7 (by decide)).trans ((W2_arr m ρ c 5).trans ((Cert.MlpRegion.final (V1 m ρ) c).trans ?_))
  show Cert.Spec.mlp (W1 m ρ c (Proc.devRef .tc main_arg5)) (W1 m ρ c (Proc.devRef .tc main_v0)) (W1 m ρ c (Proc.devRef .tc main_v3))
    (W1 m ρ c (Proc.devRef .tc main_v1)) (W1 m ρ c (Proc.devRef .tc main_v4)) = _
  rw [W1_arg5, W1_v0, W1_v3, W1_v1, W1_v4]
  rfl

/-- After the first two regions the projection's array holds `wts`. -/
theorem wts_at : W3 m ρ c (Proc.devRef .tc main_v8) = Res.wts m c := by
  refine (W3_arr m ρ c 4).trans ((Cert.RbfRegion.final (V2 m ρ) c).trans ?_)
  show Cert.Spec.rbf (W2 m ρ c (Proc.devRef .tc main_arg4)) (W2 m ρ c (Proc.devRef .tc main_v6)) (W2 m ρ c (Proc.devRef .tc main_v2))
    (W2 m ρ c (Proc.devRef .tc main_v5)) = _
  rw [W2_arg4, W2_v6, W2_v2, W2_v5]
  rfl

/-! ## The second stretch: the two row gathers -/

theorem phiJ_at : W4 m ρ c (Proc.devRef .tc main_v15) = Res.phiJ m c := by
  show StableHlo.after hostOps2 (W3 m ρ c) (Proc.devRef .tc main_v15) = _
  after_results
  rw [phi_at, W3_arg1]
  rfl

theorem vecJ_at : W4 m ρ c (Proc.devRef .tc main_v23) = Res.vecJ m c := by
  show StableHlo.after hostOps2 (W3 m ρ c) (Proc.devRef .tc main_v23) = _
  after_results
  rw [W3_arg6, W3_arg1]
  rfl

theorem W4_v8 : W4 m ρ c (Proc.devRef .tc main_v8) = Res.wts m c := by
  refine Eq.trans ?_ (wts_at m ρ c)
  not_written hostOps2, main_v8

/-! ## The combination's region -/

theorem scal_at : W5 m ρ c (Proc.devRef .tc main_v24_0) = Cert.Spec.scal (Res.phiJ m c) (Res.wts m c) := by
  refine (W5_arr m ρ c 4).trans ((Cert.CombineRegion.final4 (V4 m ρ) c).trans ?_)
  show Cert.Spec.scal (W4 m ρ c (Proc.devRef .tc main_v15)) (W4 m ρ c (Proc.devRef .tc main_v8)) = _
  rw [phiJ_at, W4_v8]

theorem vec_at : W5 m ρ c (Proc.devRef .tc main_v24_1)
    = Cert.Spec.vec (Res.phiJ m c) (Res.wts m c) (Res.vecJ m c) (m ((c : Thread nD τ).loc main_arg2)) := by
  refine (W5_arr m ρ c 5).trans ((Cert.CombineRegion.final5 (V4 m ρ) c).trans ?_)
  show Cert.Spec.vec (W4 m ρ c (Proc.devRef .tc main_v15)) (W4 m ρ c (Proc.devRef .tc main_v8)) (W4 m ρ c (Proc.devRef .tc main_v23))
    (W4 m ρ c (Proc.devRef .tc main_arg2)) = _
  rw [phiJ_at, W4_v8, vecJ_at, W4_arg2]

/-! ## The last stretch: the two results -/

/-- The scalar result buffer ends at `res0`. -/
theorem out0 : W6 m ρ c (Proc.devRef .tc main_v32) = Res.res0 m c := by
  show StableHlo.after hostOps3 (W5 m ρ c) (Proc.devRef .tc main_v32) = _
  after_results
  rw [scal_at, W5_arg5, W5_arg0]
  rfl

/-- The vector result buffer ends at `res1`. -/
theorem out1 : W6 m ρ c (Proc.devRef .tc main_v33) = Res.res1 m c := by
  show StableHlo.after hostOps3 (W5 m ρ c) (Proc.devRef .tc main_v33) = _
  after_results
  rw [vec_at, W5_arg6, W5_arg0]
  rfl

end Cert.Walk

end
-- ==== Proof.RefSpec.lean ====
/-
  The reference program's stretches are the specification's functions.

  Four stretches of the reference are identified, index by index on the extended reals, with the functions of
  `Cert.Spec`: the two-layer perceptron, the gated radial-basis projection, the scalar message (the middle block
  of an entrywise product) and the per-edge vector message.
-/
import proofs.«123346_j82308753261028_2_alg».proof.Proof.Gen.ReferenceIdeal.Read
import proofs.«123346_j82308753261028_2_alg».proof.Proof.Spec
import Idealize.ShloMosaic.Lib.Pipeline.Value
import Idealize.ShloMosaic.Lib.ValueIdx
import Idealize.ShloMosaic.PureOps.Ideal.Laws

noncomputable section

open scoped BigOperators

namespace Cert.RefSpec

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The bit pattern `0x3F800000` is the number one. -/
theorem ofBits_one_f32 : Ideal.ofBits .f32 0x3F800000#32 = 1 := by
  simp [Ideal.ofBits, Ideal.ieee, -EReal.coe_mul]; norm_num

/-- `h · (1 / (1 + e^(-h)))`, spelt with the host's operations, is `act h`. -/
theorem act_eq (h : Ideal .f32) :
    FloatOps.mulf h (FloatOps.hostDivf (FloatOps.ofBits .f32 0x3F800000#32)
      (FloatOps.addf (FloatOps.ofBits .f32 0x3F800000#32) (FloatOps.hostUnary .exp (FloatOps.hostNegf h))))
      = Cert.Spec.act h := by
  simp only [Ideal.mulf_def, Ideal.hostDivf_def, Ideal.ofBits_def, Ideal.addf_def, Ideal.hostUnary_exp_def,
    Ideal.hostNegf_def, Ideal.negf_def, ofBits_one_f32]
  rfl

/-- The hidden layer of the reference, before its activation, at row `n`, unit `k`. -/
theorem hid_eq (x5 : (⟨S25000x128, .f32⟩ : BufTy).Contents (Elt Ideal)) (x7 : (⟨S128x128, .f32⟩ : BufTy).Contents (Elt Ideal))
    (x8 : (⟨S128, .f32⟩ : BufTy).Contents (Elt Ideal)) (n : Fin 25000) (k : Fin 128) :
    val_main_v4 (F := Ideal) x5 x7 x8 (ix2 n k)
      = Cert.Spec.hidAt x5 (val_main_v0 (F := Ideal) x7) (val_main_v2 (F := Ideal) x8) n k := by
  rw [val_main_v4_apply, val_main_v1_apply, val_main_v3_apply]
  have e1 : ∀ j : Fin 128, lidx_main_v1 (ix2 n k) j = ix2 n j := fun j =>
    funext fun a => by match a with | ⟨0, _⟩ => rfl | ⟨1, _⟩ => rfl
  have e2 : ∀ j : Fin 128, ridx_main_v1 (ix2 n k) j = ix2 j k := fun j =>
    funext fun a => by match a with | ⟨0, _⟩ => rfl | ⟨1, _⟩ => rfl
  have e3 : idx_main_v3 (ix2 n k) = ix2 0 k :=
    funext fun a => by match a with | ⟨0, _⟩ => rfl | ⟨1, _⟩ => rfl
  simp only [e1, e2, e3, Ideal.addf_def]
  rfl

/-- The activated hidden layer of the reference at row `n`, unit `k`. -/
theorem hidact_eq (x5 : (⟨S25000x128, .f32⟩ : BufTy).Contents (Elt Ideal)) (x7 : (⟨S128x128, .f32⟩ : BufTy).Contents (Elt Ideal))
    (x8 : (⟨S128, .f32⟩ : BufTy).Contents (Elt Ideal)) (n : Fin 25000) (k : Fin 128) :
    val_main_v5 (F := Ideal) x5 x7 x8 (ix2 n k)
      = Cert.Spec.act (Cert.Spec.hidAt x5 (val_main_v0 (F := Ideal) x7) (val_main_v2 (F := Ideal) x8) n k) := by
  rw [val_main_v5_apply, val_main_call0_v5_apply, val_main_call0_v4_apply, val_main_call0_cst_0_apply,
    val_main_call0_v3_apply, val_main_call0_v2_apply, val_main_call0_cst_apply, val_main_call0_v1_apply,
    val_main_call0_v0_apply, hid_eq]
  exact act_eq _

/-- A feature-indexed array `y (e, f)`, given a trailing unit axis and then repeated along it, read at `(e, f, k)`. -/
theorem bcast_feat_apply (y : FVec Ideal S400000x128 .f32) (e : Fin 400000) (f : Fin 128) (k : Fin 3) :
    broadcastInDim S400000x128x3 ![0, 1, 2] bcast_S400000x128x1_S400000x128x3_0_1_2
      (broadcastInDim S400000x128x1 ![0, 1] bcast_S400000x128_S400000x128x1_0_1 y) (ix3 e f k) = y (ix2 e f) := by
  refine (broadcastInDim_apply _ bcast_S400000x128x1_S400000x128x3_0_1_2 _ (ix3 e f k) (ix3 e f 0) (fun a => match a with
    | ⟨0, _⟩ => by show e.val = if (400000 : Nat) = 1 then 0 else e.val; rw [if_neg (by decide)]
    | ⟨1, _⟩ => by show f.val = if (128 : Nat) = 1 then 0 else f.val; rw [if_neg (by decide)]
    | ⟨2, _⟩ => by show 0 = if (1 : Nat) = 1 then 0 else k.val; rw [if_pos rfl])).trans ?_
  exact broadcastInDim_apply _ bcast_S400000x128_S400000x128x1_0_1 y (ix3 e f 0) (ix2 e f) (fun a => match a with
    | ⟨0, _⟩ => by show e.val = if (400000 : Nat) = 1 then 0 else e.val; rw [if_neg (by decide)]
    | ⟨1, _⟩ => by show f.val = if (128 : Nat) = 1 then 0 else f.val; rw [if_neg (by decide)])

/-- A component-indexed array `r (e, k)`, given a middle unit axis and then repeated along it, read at `(e, f, k)`. -/
theorem bcast_comp_apply (r : FVec Ideal S400000x3 .f32) (e : Fin 400000) (f : Fin 128) (k : Fin 3) :
    broadcastInDim S400000x128x3 ![0, 1, 2] bcast_S400000x1x3_S400000x128x3_0_1_2
      (broadcastInDim S400000x1x3 ![0, 2] bcast_S400000x3_S400000x1x3_0_2 r) (ix3 e f k) = r (ix2 e k) := by
  refine (broadcastInDim_apply _ bcast_S400000x1x3_S400000x128x3_0_1_2 _ (ix3 e f k) (ix3 e 0 k) (fun a => match a with
    | ⟨0, _⟩ => by show e.val = if (400000 : Nat) = 1 then 0 else e.val; rw [if_neg (by decide)]
    | ⟨1, _⟩ => by show 0 = if (1 : Nat) = 1 then 0 else f.val; rw [if_pos rfl]
    | ⟨2, _⟩ => by show k.val = if (3 : Nat) = 1 then 0 else k.val; rw [if_neg (by decide)])).trans ?_
  exact broadcastInDim_apply _ bcast_S400000x3_S400000x1x3_0_2 r (ix3 e 0 k) (ix2 e k) (fun a => match a with
    | ⟨0, _⟩ => by show e.val = if (400000 : Nat) = 1 then 0 else e.val; rw [if_neg (by decide)]
    | ⟨1, _⟩ => by show k.val = if (3 : Nat) = 1 then 0 else k.val; rw [if_neg (by decide)])

/-- The first 128 columns of a 384-column array, read at `(e, f)`. -/
theorem slice0_apply (q : FVec Ideal S400000x384 .f32) (e : Fin 400000) (f : Fin 128) :
    extractStridedSlice S400000x128 ![0, 0] q slices_S400000x384_S400000x128_0_0 (ix2 e f)
      = q (ix2 e (Cert.Spec.col 0 (by omega) f)) :=
  extractStridedSlice_apply ![0, 0] q slices_S400000x384_S400000x128_0_0 (ix2 e f)
    (ix2 e (Cert.Spec.col 0 (by omega) f)) (fun a => match a with
      | ⟨0, _⟩ => by show e.val = 0 + e.val; omega
      | ⟨1, _⟩ => by show 0 + f.val = 0 + f.val; rfl)

/-- The last 128 columns of a 384-column array, read at `(e, f)`. -/
theorem slice256_apply (q : FVec Ideal S400000x384 .f32) (e : Fin 400000) (f : Fin 128) :
    extractStridedSlice S400000x128 ![0, 256] q slices_S400000x384_S400000x128_0_256 (ix2 e f)
      = q (ix2 e (Cert.Spec.col 256 (by omega) f)) :=
  extractStridedSlice_apply ![0, 256] q slices_S400000x384_S400000x128_0_256 (ix2 e f)
    (ix2 e (Cert.Spec.col 256 (by omega) f)) (fun a => match a with
      | ⟨0, _⟩ => by show e.val = 0 + e.val; omega
      | ⟨1, _⟩ => by show 256 + f.val = 256 + f.val; rfl)

/-- The reference's phi (two dot_generals around x·sigmoid(x), spelt negate / exponential / add 1 / divide / multiply) is the perceptron. -/
theorem phi_eq (x5 : (⟨S25000x128, .f32⟩ : BufTy).Contents (Elt Ideal)) (x7 : (⟨S128x128, .f32⟩ : BufTy).Contents (Elt Ideal))
    (x8 : (⟨S128, .f32⟩ : BufTy).Contents (Elt Ideal)) (x9 : (⟨S384x128, .f32⟩ : BufTy).Contents (Elt Ideal))
    (x10 : (⟨S384, .f32⟩ : BufTy).Contents (Elt Ideal)) :
    val_main_v10 (F := Ideal) x5 x7 x8 x9 x10
      = Cert.Spec.mlp x5 (val_main_v0 (F := Ideal) x7) (val_main_v2 (F := Ideal) x8) (val_main_v6 (F := Ideal) x9)
          (val_main_v8 (F := Ideal) x10) := by
  funext i
  obtain ⟨n, o, rfl⟩ : ∃ (n : Fin 25000) (o : Fin 384), i = ix2 n o := ⟨i 0, i 1, eq_ix2 i⟩
  rw [Cert.Spec.mlp_apply, val_main_v10_apply, val_main_v7_apply, val_main_v9_apply]
  have e1 : ∀ k : Fin 128, lidx_main_v7 (ix2 n o) k = ix2 n k := fun k =>
    funext fun a => by match a with | ⟨0, _⟩ => rfl | ⟨1, _⟩ => rfl
  have e2 : ∀ k : Fin 128, ridx_main_v7 (ix2 n o) k = ix2 k o := fun k =>
    funext fun a => by match a with | ⟨0, _⟩ => rfl | ⟨1, _⟩ => rfl
  have e3 : idx_main_v9 (ix2 n o) = ix2 0 o :=
    funext fun a => by match a with | ⟨0, _⟩ => rfl | ⟨1, _⟩ => rfl
  simp only [e1, e2, e3, hidact_eq, Ideal.addf_def]
  rfl

/-- The reference's edge weights W (a dot_general, a bias row, a per-row factor) are the gated projection. -/
theorem w_eq (x3 : (⟨S400000, .f32⟩ : BufTy).Contents (Elt Ideal)) (x4 : (⟨S400000x20, .f32⟩ : BufTy).Contents (Elt Ideal))
    (x11 : (⟨S384x20, .f32⟩ : BufTy).Contents (Elt Ideal)) (x12 : (⟨S384, .f32⟩ : BufTy).Contents (Elt Ideal)) :
    val_main_v18 (F := Ideal) x3 x4 x11 x12
      = Cert.Spec.rbf x4 (val_main_v16 (F := Ideal) x3) (val_main_v11 (F := Ideal) x11) (val_main_v13 (F := Ideal) x12) := by
  funext i
  obtain ⟨e, o, rfl⟩ : ∃ (e : Fin 400000) (o : Fin 384), i = ix2 e o := ⟨i 0, i 1, eq_ix2 i⟩
  rw [Cert.Spec.rbf_apply, val_main_v18_apply, val_main_v15_apply, val_main_v12_apply, val_main_v14_apply,
    val_main_v17_apply]
  have e1 : ∀ j : Fin 20, lidx_main_v12 (ix2 e o) j = ix2 e j := fun j =>
    funext fun a => by match a with | ⟨0, _⟩ => rfl | ⟨1, _⟩ => rfl
  have e2 : ∀ j : Fin 20, ridx_main_v12 (ix2 e o) j = ix2 j o := fun j =>
    funext fun a => by match a with | ⟨0, _⟩ => rfl | ⟨1, _⟩ => rfl
  have e3 : idx_main_v14 (ix2 e o) = ix2 0 o :=
    funext fun a => by match a with | ⟨0, _⟩ => rfl | ⟨1, _⟩ => rfl
  have e4 : idx_main_v17 (ix2 e o) = ix2 e 0 :=
    funext fun a => by match a with | ⟨0, _⟩ => rfl | ⟨1, _⟩ => rfl
  simp only [e1, e2, e3, e4, Ideal.addf_def, Ideal.mulf_def]
  rfl

/-- The middle 128 columns of an entrywise product are the scalar messages. -/
theorem scal_eq (p w : FVec Ideal S400000x384 .f32) :
    extractStridedSlice S400000x128 ![0, 128] (mulf p w) slices_S400000x384_S400000x128_0_128 = Cert.Spec.scal p w := by
  funext i
  obtain ⟨e, f, rfl⟩ : ∃ (e : Fin 400000) (f : Fin 128), i = ix2 e f := ⟨i 0, i 1, eq_ix2 i⟩
  rw [Cert.Spec.scal_apply]
  refine (extractStridedSlice_apply ![0, 128] (mulf p w) slices_S400000x384_S400000x128_0_128 (ix2 e f)
    (ix2 e (Cert.Spec.col 128 (by omega) f)) (fun a => match a with
      | ⟨0, _⟩ => by show e.val = 0 + e.val; omega
      | ⟨1, _⟩ => by show 128 + f.val = 128 + f.val; rfl)).trans ?_
  rfl

/-- The reference's per-edge vector message [edge, feature, component], read at (e, f, k), is the specification's vector
    message at (e, k, f) when g is v with its two trailing axes swapped. -/
theorem vec_eq (p w : FVec Ideal S400000x384 .f32) (g : FVec Ideal S400000x128x3 .f32) (v : FVec Ideal ⟨3, ![400000, 3, 128]⟩ .f32) (r : FVec Ideal S400000x3 .f32)
    (hg : ∀ (e : Fin 400000) (k : Fin 3) (f : Fin 128), g (ix3 e f k) = v (ix3 e k f)) (e : Fin 400000) (k : Fin 3) (f : Fin 128) :
    addf (mulf g (broadcastInDim S400000x128x3 ![0, 1, 2] bcast_S400000x128x1_S400000x128x3_0_1_2 (broadcastInDim S400000x128x1 ![0, 1] bcast_S400000x128_S400000x128x1_0_1 (extractStridedSlice S400000x128 ![0, 0] (mulf p w) slices_S400000x384_S400000x128_0_0))))
         (mulf (broadcastInDim S400000x128x3 ![0, 1, 2] bcast_S400000x128x1_S400000x128x3_0_1_2 (broadcastInDim S400000x128x1 ![0, 1] bcast_S400000x128_S400000x128x1_0_1 (extractStridedSlice S400000x128 ![0, 256] (mulf p w) slices_S400000x384_S400000x128_0_256)))
               (broadcastInDim S400000x128x3 ![0, 1, 2] bcast_S400000x1x3_S400000x128x3_0_1_2 (broadcastInDim S400000x1x3 ![0, 2] bcast_S400000x3_S400000x1x3_0_2 r)))
      (ix3 e f k)
    = Cert.Spec.vecAt p w v r e k f := by
  rw [addf_apply, mulf_apply, mulf_apply, bcast_feat_apply, bcast_feat_apply, bcast_comp_apply, slice0_apply,
    slice256_apply, mulf_apply, mulf_apply, hg]
  unfold Cert.Spec.vecAt
  rw [mul_comm (r (ix2 e k))]

end Cert.RefSpec

end
-- ==== Proof.LibRowGatherScatter.lean ====
import Idealize.ShloMosaic.Lib.ValueIdx
import Idealize.ShloMosaic.PureOps.Ideal
import Idealize.ShloMosaic.PureOps.ShapeOps
import Idealize.ShloMosaic.PureOps.Contract

/-!
# Row gather and accumulating row scatter under a swap of the two trailing axes

  A table of shape [N, p, q] is read, or added into, by rows: the start (scatter) indices have shape [E, 1], entry
  `e` naming one row of the table; axis 0 of the table is collapsed (inserted) and axes 1, 2 are the offset (window)
  axes, whole.

  * Gather. Result element (e, a, b) is the table's element (r, a, b), where r is the start index `idx[e, 0]` read as a
    signed integer and clamped into [0, N − 1] (the slice has size 1 on axis 0, so the clamp's upper end is N − 1
    whatever p and q are): `gather_rows_apply`. The row r depends on the indices only, not on p and q, so if a second
    table of shape [N, q, p] holds the same numbers with the trailing coordinates exchanged, its gather is the first
    one's with the trailing coordinates exchanged: `gather_rows_swap`.

  * Scatter with an adding body, at the ideal instance (an exact sum of extended reals). Update element (e, a, b) lands
    on operand element (r, a, b) where r is `idx[e, 0]` read signed and NOT clamped, when 0 ≤ r < N, and is dropped
    otherwise (`rowScatter_resultIdx`); so it lands on (n, a0, b0) exactly when `idx[e, 0] = n`, a = a0 and b = b0
    (`rowScatter_resultIdx_eq_some`). Result element (n, a0, b0) is the operand's plus the sum of the updates landing
    there. Exchanging the trailing coordinates is a bijection of the update index sets that carries the set of updates
    landing on (n, b0, a0) of the [N, q, p] scatter onto the set landing on (n, a0, b0) of the [N, p, q] one, and the
    summands agree by hypothesis; so the two results agree with the trailing coordinates exchanged:
    `scatterAdd_rows_swap`.
-/

open Idealize.ShloMosaic Idealize.ShloMosaic.ValueIdx

namespace Cert.LibRowGatherScatter

/-! ## Gather -/

/-- THE ROW GATHER READ AT `(e, a, b)`: the table at row `idx[e, 0]`, read signed and clamped into `[0, N − 1]`, on
    the same trailing coordinates. On axis 0 (collapsed, slice size 1) the operand coordinate is the clamped start;
    on axes 1 and 2 (not in the start index map) the start is 0 and the coordinate is the result's offset
    coordinate. -/
theorem gather_rows_apply {α : Type} {w N E p q : Nat} (hN : 0 < N)
    (d : GatherDims ⟨3, ![N, p, q]⟩ ⟨2, ![E, 1]⟩ ⟨3, ![E, p, q]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, p, q])
    (x : (⟨3, ![N, p, q]⟩ : Shape).Idx → α) (idx : IVec ⟨2, ![E, 1]⟩ w) (e : Fin E) (a : Fin p) (b : Fin q) :
    Host.gather d x idx (ix3 e a b)
      = x (ix3 ⟨min (idx (ix2 e 0)).toInt.toNat (N - 1), by omega⟩ a b) := by
  obtain ⟨od, cd, ob, sb, sm, iv, ss, wf⟩ := d
  simp only at h1 h2 h3 h4 h5 h6 h7
  subst h1 h2 h3 h4 h5 h6 h7
  unfold Host.gather
  congr 1
  funext c
  refine Fin.ext ?_
  match c with
  | ⟨0, _⟩ =>
    show GatherDims.start _ (ix3 e a b) idx 0 + GatherDims.batchCoord _ (ix3 e a b) 0
        + GatherDims.offCoord _ (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ hlt, GatherDims.siIdx (s := ⟨3, ![N, p, q]⟩) (si := ⟨2, ![E, 1]⟩) (t := ⟨3, ![E, p, q]⟩)
        ⟨[1, 2], [0], [], [], [0], 1, ![1, p, q], wf⟩ (ix3 e a b)
        ⟨List.idxOf (0 : Fin 3) [0], hlt⟩ = ix2 e 0 := by
      intro hlt
      funext c; refine Fin.ext ?_
      match c with
      | ⟨0, _⟩ => rfl
      | ⟨1, _⟩ => rfl
    rw [hsi]
    rfl
  | ⟨1, _⟩ =>
    show GatherDims.start _ (ix3 e a b) idx 1 + GatherDims.batchCoord _ (ix3 e a b) 1
        + GatherDims.offCoord _ (ix3 e a b) 1 = _
    rw [GatherDims.batchCoord_eq_zero _ _ _ List.not_mem_nil]
    unfold GatherDims.start GatherDims.offCoord
    have hm : ¬ (1 : Fin 3) ∈ ([0] : List (Fin 3)) := by decide
    rw [dif_neg hm, dif_pos ((GatherDims.mem_sKept _ _).mpr ⟨hm, List.not_mem_nil⟩)]
    simp only [Nat.zero_add]
    rfl
  | ⟨2, _⟩ =>
    show GatherDims.start _ (ix3 e a b) idx 2 + GatherDims.batchCoord _ (ix3 e a b) 2
        + GatherDims.offCoord _ (ix3 e a b) 2 = _
    rw [GatherDims.batchCoord_eq_zero _ _ _ List.not_mem_nil]
    unfold GatherDims.start GatherDims.offCoord
    have hm : ¬ (2 : Fin 3) ∈ ([0] : List (Fin 3)) := by decide
    rw [dif_neg hm, dif_pos ((GatherDims.mem_sKept _ _).mpr ⟨hm, List.not_mem_nil⟩)]
    simp only [Nat.zero_add]
    rfl

/-- A row gather commutes with swapping the two trailing axes of the table. -/
theorem gather_rows_swap {α : Type} {w : Nat}
    (dB : GatherDims ⟨3, ![25000, 3, 128]⟩ ⟨2, ![400000, 1]⟩ ⟨3, ![400000, 3, 128]⟩)
    (dC : GatherDims ⟨3, ![25000, 128, 3]⟩ ⟨2, ![400000, 1]⟩ ⟨3, ![400000, 128, 3]⟩)
    (hB1 : dB.offsetDims = [1, 2]) (hB2 : dB.collapsedSliceDims = [0]) (hB3 : dB.operandBatchingDims = [])
    (hB4 : dB.startIndicesBatchingDims = []) (hB5 : dB.startIndexMap = [0]) (hB6 : dB.indexVectorDim = 1) (hB7 : dB.sliceSizes = ![1, 3, 128])
    (hC1 : dC.offsetDims = [1, 2]) (hC2 : dC.collapsedSliceDims = [0]) (hC3 : dC.operandBatchingDims = [])
    (hC4 : dC.startIndicesBatchingDims = []) (hC5 : dC.startIndexMap = [0]) (hC6 : dC.indexVectorDim = 1) (hC7 : dC.sliceSizes = ![1, 128, 3])
    (xB : (⟨3, ![25000, 3, 128]⟩ : Shape).Idx → α) (xC : (⟨3, ![25000, 128, 3]⟩ : Shape).Idx → α)
    (hx : ∀ (n : Fin 25000) (a : Fin 3) (b : Fin 128), xC (ix3 n b a) = xB (ix3 n a b))
    (idx : IVec ⟨2, ![400000, 1]⟩ w) (e : Fin 400000) (a : Fin 3) (b : Fin 128) :
    Host.gather dC xC idx (ix3 e b a) = Host.gather dB xB idx (ix3 e a b) := by
  rw [gather_rows_apply (by norm_num) dC hC1 hC2 hC3 hC4 hC5 hC6 hC7,
    gather_rows_apply (by norm_num) dB hB1 hB2 hB3 hB4 hB5 hB6 hB7]
  exact hx _ a b

/-! ## Scatter with an adding body -/

/-- The row-scatter dimension numbers with every list a literal. -/
private abbrev rowScatter {N E p q : Nat}
    (wf : ScatterDims.WF ⟨3, ![N, p, q]⟩ ⟨2, ![E, 1]⟩ ⟨3, ![E, p, q]⟩ [1, 2] [0] [0] 1) :
    ScatterDims ⟨3, ![N, p, q]⟩ ⟨2, ![E, 1]⟩ ⟨3, ![E, p, q]⟩ :=
  ⟨[1, 2], [0], [0], 1, wf⟩

section
variable {w N E p q : Nat}
  (wf : ScatterDims.WF ⟨3, ![N, p, q]⟩ ⟨2, ![E, 1]⟩ ⟨3, ![E, p, q]⟩ [1, 2] [0] [0] 1)
  (idx : IVec ⟨2, ![E, 1]⟩ w) (e : Fin E) (a : Fin p) (b : Fin q)

/-- On axis 0 the window starts at the update's scatter index `idx[e, 0]`, read signed. -/
private theorem rowScatter_start0 :
    (rowScatter wf).start (ix3 e a b) idx 0 = (idx (ix2 e 0)).toInt := by
  unfold ScatterDims.start
  rw [dif_pos (List.mem_singleton.mpr rfl)]
  have hsi : ∀ hlt, (rowScatter wf).siIdx (ix3 e a b) ⟨List.idxOf (0 : Fin 3) [0], hlt⟩ = ix2 e 0 := by
    intro hlt
    funext c; refine Fin.ext ?_
    match c with
    | ⟨0, _⟩ => rfl
    | ⟨1, _⟩ => rfl
  rw [hsi]

/-- Axis 1 is not named by the scatter index: the window starts at 0 there. -/
private theorem rowScatter_start1 : (rowScatter wf).start (ix3 e a b) idx 1 = 0 := by
  unfold ScatterDims.start
  have hm : ¬ (1 : Fin 3) ∈ ([0] : List (Fin 3)) := by decide
  rw [dif_neg hm]

/-- Axis 2 is not named by the scatter index: the window starts at 0 there. -/
private theorem rowScatter_start2 : (rowScatter wf).start (ix3 e a b) idx 2 = 0 := by
  unfold ScatterDims.start
  have hm : ¬ (2 : Fin 3) ∈ ([0] : List (Fin 3)) := by decide
  rw [dif_neg hm]

/-- The axes of a rank-3 operand other than axis 0 are axes 1 and 2. -/
private theorem kept3 : ((List.finRange 3).filter (fun c : Fin 3 => c ∉ ([0] : List (Fin 3)))) = [1, 2] := by decide

/-- The operand's axes that are not inserted: axes 1 and 2. -/
private theorem rowScatter_sKept : (rowScatter wf).sKept = [1, 2] := kept3

/-- Axis 0 is inserted: the window coordinate is 0 there. -/
private theorem rowScatter_window0 : (rowScatter wf).window (ix3 e a b) 0 = 0 := by
  unfold ScatterDims.window
  have hm : ¬ (0 : Fin 3) ∈ ([1, 2] : List (Fin 3)) := by decide
  rw [dif_neg (by rw [rowScatter_sKept]; exact hm)]

/-- On axis 1 the window coordinate is the update's coordinate on its axis 1. -/
private theorem rowScatter_window1 : (rowScatter wf).window (ix3 e a b) 1 = a.val := by
  unfold ScatterDims.window
  have hm : (1 : Fin 3) ∈ ([1, 2] : List (Fin 3)) := by decide
  rw [dif_pos (by rw [rowScatter_sKept]; exact hm)]
  rfl

/-- On axis 2 the window coordinate is the update's coordinate on its axis 2. -/
private theorem rowScatter_window2 : (rowScatter wf).window (ix3 e a b) 2 = b.val := by
  unfold ScatterDims.window
  have hm : (2 : Fin 3) ∈ ([1, 2] : List (Fin 3)) := by decide
  rw [dif_pos (by rw [rowScatter_sKept]; exact hm)]
  rfl

/-- Where an update of the row scatter lands: at the row named by its scatter index, read signed, on the same
    trailing coordinates, when that row exists; nowhere otherwise. -/
private theorem rowScatter_resultIdx :
    (rowScatter wf).resultIdx? (ix3 e a b) idx
      = if h : 0 ≤ (idx (ix2 e 0)).toInt ∧ (idx (ix2 e 0)).toInt < (N : Int) then
          some (ix3 ⟨(idx (ix2 e 0)).toInt.toNat, by omega⟩ a b)
        else none := by
  unfold ScatterDims.resultIdx?
  by_cases hv : 0 ≤ (idx (ix2 e 0)).toInt ∧ (idx (ix2 e 0)).toInt < (N : Int)
  · have H : ∀ c, 0 ≤ (rowScatter wf).start (ix3 e a b) idx c + (rowScatter wf).window (ix3 e a b) c ∧
        (rowScatter wf).start (ix3 e a b) idx c + (rowScatter wf).window (ix3 e a b) c
          < (⟨3, ![N, p, q]⟩ : Shape).size c := by
      intro c
      match c with
      | ⟨0, _⟩ =>
        show 0 ≤ (rowScatter wf).start (ix3 e a b) idx 0 + (rowScatter wf).window (ix3 e a b) 0 ∧
          (rowScatter wf).start (ix3 e a b) idx 0 + (rowScatter wf).window (ix3 e a b) 0 < (N : Int)
        rw [rowScatter_start0, rowScatter_window0]
        simpa using hv
      | ⟨1, _⟩ =>
        show 0 ≤ (rowScatter wf).start (ix3 e a b) idx 1 + (rowScatter wf).window (ix3 e a b) 1 ∧
          (rowScatter wf).start (ix3 e a b) idx 1 + (rowScatter wf).window (ix3 e a b) 1 < (p : Int)
        rw [rowScatter_start1, rowScatter_window1]
        have := a.isLt
        omega
      | ⟨2, _⟩ =>
        show 0 ≤ (rowScatter wf).start (ix3 e a b) idx 2 + (rowScatter wf).window (ix3 e a b) 2 ∧
          (rowScatter wf).start (ix3 e a b) idx 2 + (rowScatter wf).window (ix3 e a b) 2 < (q : Int)
        rw [rowScatter_start2, rowScatter_window2]
        have := b.isLt
        omega
    rw [dif_pos H, dif_pos hv]
    congr 1
    funext c
    refine Fin.ext ?_
    match c with
    | ⟨0, _⟩ =>
      show ((rowScatter wf).start (ix3 e a b) idx 0 + (rowScatter wf).window (ix3 e a b) 0).toNat
        = (idx (ix2 e 0)).toInt.toNat
      rw [rowScatter_start0, rowScatter_window0]
      simp
    | ⟨1, _⟩ =>
      show ((rowScatter wf).start (ix3 e a b) idx 1 + (rowScatter wf).window (ix3 e a b) 1).toNat = a.val
      rw [rowScatter_start1, rowScatter_window1]
      simp
    | ⟨2, _⟩ =>
      show ((rowScatter wf).start (ix3 e a b) idx 2 + (rowScatter wf).window (ix3 e a b) 2).toNat = b.val
      rw [rowScatter_start2, rowScatter_window2]
      simp
  · rw [dif_neg hv, dif_neg]
    intro H
    apply hv
    have h0 : 0 ≤ (rowScatter wf).start (ix3 e a b) idx 0 + (rowScatter wf).window (ix3 e a b) 0 ∧
        (rowScatter wf).start (ix3 e a b) idx 0 + (rowScatter wf).window (ix3 e a b) 0 < (N : Int) := H 0
    rw [rowScatter_start0, rowScatter_window0] at h0
    simpa using h0

/-- An update lands on a given element exactly when its scatter index names that element's row and the trailing
    coordinates agree. -/
private theorem rowScatter_resultIdx_eq_some (n : Fin N) (a0 : Fin p) (b0 : Fin q) :
    (rowScatter wf).resultIdx? (ix3 e a b) idx = some (ix3 n a0 b0)
      ↔ (idx (ix2 e 0)).toInt = (n.val : Int) ∧ a = a0 ∧ b = b0 := by
  rw [rowScatter_resultIdx]
  have hn := n.isLt
  by_cases hv : 0 ≤ (idx (ix2 e 0)).toInt ∧ (idx (ix2 e 0)).toInt < (N : Int)
  · rw [dif_pos hv, Option.some.injEq]
    constructor
    · intro h
      have h0 : (⟨(idx (ix2 e 0)).toInt.toNat, by omega⟩ : Fin N) = n := congrFun h 0
      have h1 : a = a0 := congrFun h 1
      have h2 : b = b0 := congrFun h 2
      have h0' : (idx (ix2 e 0)).toInt.toNat = n.val := congrArg Fin.val h0
      exact ⟨by omega, h1, h2⟩
    · rintro ⟨h0, rfl, rfl⟩
      have : (⟨(idx (ix2 e 0)).toInt.toNat, by omega⟩ : Fin N) = n := Fin.ext (by simp only; omega)
      rw [this]
  · rw [dif_neg hv]
    constructor
    · intro h; exact absurd h (by simp)
    · rintro ⟨h0, -, -⟩
      exact absurd ⟨by omega, by omega⟩ hv

end

/-- Swapping the two trailing coordinates, as a bijection of rank-3 index sets. -/
private def swapEquiv (E p q : Nat) : (⟨3, ![E, q, p]⟩ : Shape).Idx ≃ (⟨3, ![E, p, q]⟩ : Shape).Idx where
  toFun j := ix3 (j 0) (j 2) (j 1)
  invFun j := ix3 (j 0) (j 2) (j 1)
  left_inv j := by funext c; match c with | ⟨0, _⟩ => rfl | ⟨1, _⟩ => rfl | ⟨2, _⟩ => rfl
  right_inv j := by funext c; match c with | ⟨0, _⟩ => rfl | ⟨1, _⟩ => rfl | ⟨2, _⟩ => rfl

/-- An accumulating row scatter commutes with swapping the two trailing axes of operand and updates (at Ideal: an exact sum). -/
theorem scatterAdd_rows_swap {w : Nat}
    (dB : ScatterDims ⟨3, ![25000, 3, 128]⟩ ⟨2, ![400000, 1]⟩ ⟨3, ![400000, 3, 128]⟩)
    (dC : ScatterDims ⟨3, ![25000, 128, 3]⟩ ⟨2, ![400000, 1]⟩ ⟨3, ![400000, 128, 3]⟩)
    (hB1 : dB.updateWindowDims = [1, 2]) (hB2 : dB.insertedWindowDims = [0]) (hB3 : dB.scatterDimsToOperandDims = [0]) (hB4 : dB.indexVectorDim = 1)
    (hC1 : dC.updateWindowDims = [1, 2]) (hC2 : dC.insertedWindowDims = [0]) (hC3 : dC.scatterDimsToOperandDims = [0]) (hC4 : dC.indexVectorDim = 1)
    (xB : FVec Ideal ⟨3, ![25000, 3, 128]⟩ .f32) (xC : FVec Ideal ⟨3, ![25000, 128, 3]⟩ .f32)
    (hx : ∀ (n : Fin 25000) (a : Fin 3) (b : Fin 128), xC (ix3 n b a) = xB (ix3 n a b))
    (idx : IVec ⟨2, ![400000, 1]⟩ w)
    (uB : FVec Ideal ⟨3, ![400000, 3, 128]⟩ .f32) (uC : FVec Ideal ⟨3, ![400000, 128, 3]⟩ .f32)
    (hu : ∀ (e : Fin 400000) (a : Fin 3) (b : Fin 128), uC (ix3 e b a) = uB (ix3 e a b))
    (n : Fin 25000) (a : Fin 3) (b : Fin 128) :
    Host.scatterAdd (F := Ideal) dC xC idx uC (ix3 n b a) = Host.scatterAdd (F := Ideal) dB xB idx uB (ix3 n a b) := by
  obtain ⟨uwB, iwB, sdB, ivB, wfB⟩ := dB
  obtain ⟨uwC, iwC, sdC, ivC, wfC⟩ := dC
  simp only at hB1 hB2 hB3 hB4 hC1 hC2 hC3 hC4
  subst hB1 hB2 hB3 hB4 hC1 hC2 hC3 hC4
  unfold Host.scatterAdd
  rw [Ideal.hostScatterAdd_def, Ideal.hostScatterAdd_def]
  unfold Ideal.hostScatterAdd
  refine congrArg₂ (· + ·) (hx n a b) ?_
  refine Finset.sum_equiv (swapEquiv 400000 3 128) ?_ ?_
  · intro j
    obtain ⟨e, b', a', rfl⟩ : ∃ (e : Fin 400000) (b' : Fin 128) (a' : Fin 3), j = ix3 e b' a' :=
      ⟨j 0, j 1, j 2, eq_ix3 j⟩
    simp only [Finset.mem_filter, Finset.mem_univ, true_and]
    show (rowScatter wfC).resultIdx? (ix3 e b' a') idx = some (ix3 n b a)
      ↔ (rowScatter wfB).resultIdx? (ix3 e a' b') idx = some (ix3 n a b)
    rw [rowScatter_resultIdx_eq_some, rowScatter_resultIdx_eq_some]
    tauto
  · intro j _
    obtain ⟨e, b', a', rfl⟩ : ∃ (e : Fin 400000) (b' : Fin 128) (a' : Fin 3), j = ix3 e b' a' :=
      ⟨j 0, j 1, j 2, eq_ix3 j⟩
    exact hu e a' b'

end Cert.LibRowGatherScatter
-- ==== Proof.LibReshapeRow.lean ====
import Idealize.ShloMosaic.Lib.Pipeline.Value
import Idealize.ShloMosaic.Lib.ValueIdx
import Idealize.ShloMosaic.Lib.ValueLayout

/-!
# A vector as a one-row matrix: reshape and broadcast agree

Two ways of writing a vector `x` of `n` entries as a `1 × n` matrix: reshaping it (same entries in row-major order), and
broadcasting it along axis 1 (entry `(u, i)` reads `x i`). The only row is row `0`, whose row-major position of column
`i` is `0 * n + i = i`, so both arrays have `x i` at `(u, i)`.
-/

namespace Idealize.ShloMosaic

open Idealize.ShloMosaic.ValueIdx

/-- A vector of `n` entries reshaped to a `1 × n` row is the same array as the vector broadcast along axis 1 into a
    `1 × n` row: entry `(u, i)` of either is entry `i` of the vector. -/
theorem shapeCast_row_eq_broadcastInDim {α : Type} {n : Nat} (x : (⟨1, ![n]⟩ : Shape).Idx → α)
    (h₁ : (⟨1, ![n]⟩ : Shape).ShapeCasts ⟨2, ![1, n]⟩)
    (h₂ : (⟨1, ![n]⟩ : Shape).BroadcastsInDim ⟨2, ![1, n]⟩ ![1]) :
    shapeCast ⟨2, ![1, n]⟩ x h₁ = broadcastInDim ⟨2, ![1, n]⟩ ![1] h₂ x := by
  funext j
  obtain ⟨u, i, rfl⟩ : ∃ (u : Fin 1) (i : Fin n), j = ix2 u i := ⟨j 0, j 1, eq_ix2 j⟩
  -- the reshape at (u, i) is x at i
  rw [shapeCast_a_1a_apply x h₁ u i]
  -- the broadcast at (u, i) is x at i: the vector's only axis goes to axis 1
  refine (broadcastInDim_apply ![1] h₂ x (ix2 u i) (ix1 i) ?_).symm
  intro a
  match a with
  | ⟨0, _⟩ =>
    show i.val = if n = 1 then 0 else i.val
    split
    · have := i.isLt; omega
    · rfl

/-- The same at an element type of a float instance: a float vector of `n` entries reshaped to `1 × n` is its
    broadcast along axis 1. -/
theorem shapeCast_row_eq_broadcastInDim_fvec {F : FTy → Type} {φ : FTy} {n : Nat} (x : FVec F ⟨1, ![n]⟩ φ)
    (h₁ : (⟨1, ![n]⟩ : Shape).ShapeCasts ⟨2, ![1, n]⟩)
    (h₂ : (⟨1, ![n]⟩ : Shape).BroadcastsInDim ⟨2, ![1, n]⟩ ![1]) :
    shapeCast ⟨2, ![1, n]⟩ x h₁ = broadcastInDim ⟨2, ![1, n]⟩ ![1] h₂ x :=
  shapeCast_row_eq_broadcastInDim x h₁ h₂

end Idealize.ShloMosaic
-- ==== Proof.Bridge.lean ====
/-
  The reference's two results are the program's two result terms.

  Both sides gather rows of the same perceptron output with the same row indices, multiply by the same edge weights, cut
  the same three bands, and add the same messages into the receivers' rows. They differ in four places, none of which
  changes a number: a bias vector turned into a one-row matrix by a reshape on one side and by a broadcast on the other
  (the same row); the distances turned into a one-column matrix likewise (the same column); the factors of one product
  in the other order (multiplication of extended reals commutes); and the vector messages carried as
  `[edge, component, feature]` on one side and `[edge, feature, component]` on the other, gathered from and added into
  tables laid out accordingly — a row gather and an accumulating row scatter both commute with exchanging the two
  trailing axes, the second because a sum of extended reals does not depend on the order of its terms.
-/
import proofs.«123346_j82308753261028_2_alg».proof.Proof.Result
import proofs.«123346_j82308753261028_2_alg».proof.Proof.RefSpec
import proofs.«123346_j82308753261028_2_alg».proof.Proof.LibRowGatherScatter
import proofs.«123346_j82308753261028_2_alg».proof.Proof.LibReshapeRow
import Idealize.ShloMosaic.Lib.ValueLayout

set_option maxRecDepth 16384

noncomputable section

namespace Cert.Bridge

open Idealize.ShloMosaic Idealize.ShloMosaic.ValueIdx Idealize.ShloMosaic.TcCoe Idealize.SL.Sem
open Cert.ReferenceIdeal Cert.ReferenceIdeal.Gen Cert.ReferenceIdeal.Read

/-- A vector of `n` entries reshaped to an `n × 1` column is the vector broadcast along axis 0 into an `n × 1` column:
    entry `(i, u)` of either is entry `i` of the vector. -/
theorem shapeCast_col_eq_broadcastInDim {α : Type} {n : Nat} (x : (⟨1, ![n]⟩ : Shape).Idx → α)
    (h₁ : (⟨1, ![n]⟩ : Shape).ShapeCasts ⟨2, ![n, 1]⟩)
    (h₂ : (⟨1, ![n]⟩ : Shape).BroadcastsInDim ⟨2, ![n, 1]⟩ ![0]) :
    shapeCast ⟨2, ![n, 1]⟩ x h₁ = broadcastInDim ⟨2, ![n, 1]⟩ ![0] h₂ x := by
  funext j
  obtain ⟨i, u, rfl⟩ : ∃ (i : Fin n) (u : Fin 1), j = ix2 i u := ⟨j 0, j 1, eq_ix2 j⟩
  have hu : u.val = 0 := by have := u.isLt; omega
  refine (shapeCast_apply x h₁ (ix2 i u) (ix1 i) ?_).trans (broadcastInDim_apply ![0] h₂ x (ix2 i u) (ix1 i) ?_).symm
  · rw [Shape.rowMajor_val_one, Shape.rowMajor_val_two]
    show i.val = i.val * 1 + u.val
    omega
  · intro a
    match a with
    | ⟨0, _⟩ =>
      show i.val = if n = 1 then 0 else i.val
      split
      · have := i.isLt; omega
      · rfl

variable (m : (ℓ : Loc Cert.KernelIdeal.nD Cert.KernelIdeal.τ Cert.KernelIdeal.sig) → Buf (Elt Ideal) ℓ) (c : Dev Cert.KernelIdeal.nD)

/-- Argument 0 of the launch, at the reference's spelling of its type. -/
abbrev x0 : (⟨S400000, .i32⟩ : BufTy).Contents (Elt Ideal) := m ((c : Thread Cert.KernelIdeal.nD Cert.KernelIdeal.τ).loc Cert.KernelIdeal.main_arg0)
/-- Argument 1 of the launch, at the reference's spelling of its type. -/
abbrev x1 : (⟨S400000, .i32⟩ : BufTy).Contents (Elt Ideal) := m ((c : Thread Cert.KernelIdeal.nD Cert.KernelIdeal.τ).loc Cert.KernelIdeal.main_arg1)
/-- Argument 2 of the launch, at the reference's spelling of its type. -/
abbrev x2 : (⟨S400000x3, .f32⟩ : BufTy).Contents (Elt Ideal) := m ((c : Thread Cert.KernelIdeal.nD Cert.KernelIdeal.τ).loc Cert.KernelIdeal.main_arg2)
/-- Argument 3 of the launch, at the reference's spelling of its type. -/
abbrev x3 : (⟨S400000, .f32⟩ : BufTy).Contents (Elt Ideal) := m ((c : Thread Cert.KernelIdeal.nD Cert.KernelIdeal.τ).loc Cert.KernelIdeal.main_arg3)
/-- Argument 4 of the launch, at the reference's spelling of its type. -/
abbrev x4 : (⟨S400000x20, .f32⟩ : BufTy).Contents (Elt Ideal) := m ((c : Thread Cert.KernelIdeal.nD Cert.KernelIdeal.τ).loc Cert.KernelIdeal.main_arg4)
/-- Argument 5 of the launch, at the reference's spelling of its type. -/
abbrev x5 : (⟨S25000x128, .f32⟩ : BufTy).Contents (Elt Ideal) := m ((c : Thread Cert.KernelIdeal.nD Cert.KernelIdeal.τ).loc Cert.KernelIdeal.main_arg5)
/-- Argument 6 of the launch, at the reference's spelling of its type. -/
abbrev x6 : (⟨S25000x128x3, .f32⟩ : BufTy).Contents (Elt Ideal) := m ((c : Thread Cert.KernelIdeal.nD Cert.KernelIdeal.τ).loc Cert.KernelIdeal.main_arg6)
/-- Argument 7 of the launch, at the reference's spelling of its type. -/
abbrev x7 : (⟨S128x128, .f32⟩ : BufTy).Contents (Elt Ideal) := m ((c : Thread Cert.KernelIdeal.nD Cert.KernelIdeal.τ).loc Cert.KernelIdeal.main_arg7)
/-- Argument 8 of the launch, at the reference's spelling of its type. -/
abbrev x8 : (⟨S128, .f32⟩ : BufTy).Contents (Elt Ideal) := m ((c : Thread Cert.KernelIdeal.nD Cert.KernelIdeal.τ).loc Cert.KernelIdeal.main_arg8)
/-- Argument 9 of the launch, at the reference's spelling of its type. -/
abbrev x9 : (⟨S384x128, .f32⟩ : BufTy).Contents (Elt Ideal) := m ((c : Thread Cert.KernelIdeal.nD Cert.KernelIdeal.τ).loc Cert.KernelIdeal.main_arg9)
/-- Argument 10 of the launch, at the reference's spelling of its type. -/
abbrev x10 : (⟨S384, .f32⟩ : BufTy).Contents (Elt Ideal) := m ((c : Thread Cert.KernelIdeal.nD Cert.KernelIdeal.τ).loc Cert.KernelIdeal.main_arg10)
/-- Argument 11 of the launch, at the reference's spelling of its type. -/
abbrev x11 : (⟨S384x20, .f32⟩ : BufTy).Contents (Elt Ideal) := m ((c : Thread Cert.KernelIdeal.nD Cert.KernelIdeal.τ).loc Cert.KernelIdeal.main_arg11)
/-- Argument 12 of the launch, at the reference's spelling of its type. -/
abbrev x12 : (⟨S384, .f32⟩ : BufTy).Contents (Elt Ideal) := m ((c : Thread Cert.KernelIdeal.nD Cert.KernelIdeal.τ).loc Cert.KernelIdeal.main_arg12)

/-! ## The shared pieces -/

/-- The sender rows: the same operations on the same index array. -/
theorem rows_eq : val_main_v24 (F := Ideal) (x1 m c) = Cert.KernelIdeal.Res.rows m c := rfl
theorem rows_eq' : val_main_v38 (F := Ideal) (x1 m c) = Cert.KernelIdeal.Res.rows m c := rfl

/-- The perceptron's output: the biases as rows by a broadcast or by a reshape. -/
theorem phi_eq : val_main_v10 (F := Ideal) (x5 m c) (x7 m c) (x8 m c) (x9 m c) (x10 m c) = Cert.KernelIdeal.Res.phi m c := by
  refine (Cert.RefSpec.phi_eq (x5 m c) (x7 m c) (x8 m c) (x9 m c) (x10 m c)).trans ?_
  unfold Cert.KernelIdeal.Res.phi val_main_v0 val_main_v2 val_main_v6 val_main_v8
  have e8 : broadcastInDim S1x128 ![1] bcast_S128_S1x128_1 (x8 m c)
      = shapeCast Cert.KernelIdeal.S1x128 (x8 m c) Cert.KernelIdeal.Gen.shapeCasts_S128_S1x128 :=
    (shapeCast_row_eq_broadcastInDim (α := EReal) (n := 128) (x8 m c) Cert.KernelIdeal.Gen.shapeCasts_S128_S1x128 bcast_S128_S1x128_1).symm
  have e10 : broadcastInDim S1x384 ![1] bcast_S384_S1x384_1 (x10 m c)
      = shapeCast Cert.KernelIdeal.S1x384 (x10 m c) Cert.KernelIdeal.Gen.shapeCasts_S384_S1x384 :=
    (shapeCast_row_eq_broadcastInDim (α := EReal) (n := 384) (x10 m c) Cert.KernelIdeal.Gen.shapeCasts_S384_S1x384 bcast_S384_S1x384_1).symm
  rw [e8, e10]

/-- The edge weights: the bias as a row and the distances as a column, by a broadcast or by a reshape. -/
theorem wts_eq : val_main_v18 (F := Ideal) (x3 m c) (x4 m c) (x11 m c) (x12 m c) = Cert.KernelIdeal.Res.wts m c := by
  refine (Cert.RefSpec.w_eq (x3 m c) (x4 m c) (x11 m c) (x12 m c)).trans ?_
  unfold Cert.KernelIdeal.Res.wts val_main_v16 val_main_v11 val_main_v13
  have e12 : broadcastInDim S1x384 ![1] bcast_S384_S1x384_1 (x12 m c)
      = shapeCast Cert.KernelIdeal.S1x384 (x12 m c) Cert.KernelIdeal.Gen.shapeCasts_S384_S1x384 :=
    (shapeCast_row_eq_broadcastInDim (α := EReal) (n := 384) (x12 m c) Cert.KernelIdeal.Gen.shapeCasts_S384_S1x384 bcast_S384_S1x384_1).symm
  have e3 : broadcastInDim S400000x1 ![0] bcast_S400000_S400000x1_0 (x3 m c)
      = shapeCast Cert.KernelIdeal.S400000x1 (x3 m c) Cert.KernelIdeal.Gen.shapeCasts_S400000_S400000x1 :=
    (shapeCast_col_eq_broadcastInDim (α := EReal) (n := 400000) (x3 m c) Cert.KernelIdeal.Gen.shapeCasts_S400000_S400000x1 bcast_S400000_S400000x1_0).symm
  rw [e12, e3]

/-- The perceptron's rows of the senders. -/
theorem phiJ_eq : val_main_v25 (F := Ideal) (x1 m c) (x5 m c) (x7 m c) (x8 m c) (x9 m c) (x10 m c) = Cert.KernelIdeal.Res.phiJ m c := by
  unfold val_main_v25 Cert.KernelIdeal.Res.phiJ
  rw [phi_eq, rows_eq]
  rfl

/-! ## The scalar result -/

theorem res0_eq : val_main_v52 (F := Ideal) (x0 m c) (x1 m c) (x3 m c) (x4 m c) (x5 m c) (x7 m c) (x8 m c) (x9 m c) (x10 m c) (x11 m c) (x12 m c) = Cert.KernelIdeal.Res.res0 m c := by
  have h28 : val_main_v28 (F := Ideal) (x1 m c) (x3 m c) (x4 m c) (x5 m c) (x7 m c) (x8 m c) (x9 m c) (x10 m c) (x11 m c) (x12 m c)
      = Cert.Spec.scal (Cert.KernelIdeal.Res.phiJ m c) (Cert.KernelIdeal.Res.wts m c) := by
    unfold val_main_v28 val_main_v26
    rw [Cert.RefSpec.scal_eq, phiJ_eq, wts_eq]
  unfold val_main_v52 val_main_v32 Cert.KernelIdeal.Res.res0
  rw [h28]
  rfl

/-! ## The vector result -/

/-- The senders' vectors: gathered from the table `[node, feature, component]`, or from its transpose
    `[node, component, feature]`, the same numbers with the trailing coordinates exchanged. -/
theorem vecJ_swap (e : Fin 400000) (k : Fin 3) (f : Fin 128) :
    val_main_v39 (F := Ideal) (x1 m c) (x6 m c) (ix3 e f k) = Cert.KernelIdeal.Res.vecJ m c (ix3 e k f) := by
  unfold val_main_v39 Cert.KernelIdeal.Res.vecJ
  rw [rows_eq']
  exact Cert.LibRowGatherScatter.gather_rows_swap
    Cert.KernelIdeal.gather_S25000x3x128_S400000x1_S400000x3x128_12_0_n_n_0_1_13128
    gather_S25000x128x3_S400000x1_S400000x128x3_12_0_n_n_0_1_11283
    rfl rfl rfl rfl rfl rfl rfl rfl rfl rfl rfl rfl rfl rfl
    (transpose Cert.KernelIdeal.S25000x3x128 [0, 2, 1] (x6 m c) Cert.KernelIdeal.Gen.transposes_S25000x128x3_S25000x3x128_0_2_1) (x6 m c)
    (fun n a b => (transpose_ix3_021_apply (x6 m c) Cert.KernelIdeal.Gen.transposes_S25000x128x3_S25000x3x128_0_2_1 n a b).symm)
    (Cert.KernelIdeal.Res.rows m c) e k f

/-- The reference's vector messages at `(e, f, k)` are the program's at `(e, k, f)`. -/
theorem vec_swap (e : Fin 400000) (k : Fin 3) (f : Fin 128) :
    val_main_v48 (F := Ideal) (x1 m c) (x2 m c) (x3 m c) (x4 m c) (x5 m c) (x6 m c) (x7 m c) (x8 m c) (x9 m c) (x10 m c) (x11 m c) (x12 m c) (ix3 e f k)
      = Cert.Spec.vec (Cert.KernelIdeal.Res.phiJ m c) (Cert.KernelIdeal.Res.wts m c) (Cert.KernelIdeal.Res.vecJ m c) (x2 m c) (ix3 e k f) := by
  rw [Cert.Spec.vec_apply, ← Cert.RefSpec.vec_eq (Cert.KernelIdeal.Res.phiJ m c) (Cert.KernelIdeal.Res.wts m c)
    (val_main_v39 (F := Ideal) (x1 m c) (x6 m c)) (Cert.KernelIdeal.Res.vecJ m c) (x2 m c) (vecJ_swap m c) e k f,
    ← phiJ_eq, ← wts_eq]
  unfold val_main_v48 val_main_v42 val_main_v47 val_main_v41 val_main_v40 val_main_v45 val_main_v43 val_main_v46
    val_main_v44 val_main_v27 val_main_v29 val_main_v26
  rfl

theorem res1_eq : val_main_v53 (F := Ideal) (x0 m c) (x1 m c) (x2 m c) (x3 m c) (x4 m c) (x5 m c) (x6 m c) (x7 m c) (x8 m c) (x9 m c) (x10 m c) (x11 m c) (x12 m c) = Cert.KernelIdeal.Res.res1 m c := by
  unfold val_main_v53 val_main_v51 Cert.KernelIdeal.Res.res1
  refine congrArg (addf (F := Ideal) (s := S25000x128x3) (φ := .f32) (x6 m c)) ?_
  funext i
  obtain ⟨n, f, k, rfl⟩ : ∃ (n : Fin 25000) (f : Fin 128) (k : Fin 3), i = ix3 n f k := ⟨i 0, i 1, i 2, eq_ix3 i⟩
  refine Eq.trans ?_ (transpose_ix3_021_apply _ Cert.KernelIdeal.Gen.transposes_S25000x3x128_S25000x128x3_0_2_1 n f k).symm
  exact Cert.LibRowGatherScatter.scatterAdd_rows_swap
    Cert.KernelIdeal.scatter_S25000x3x128_S400000x1_S400000x3x128_12_0_0_1
    scatter_S25000x128x3_S400000x1_S400000x128x3_12_0_0_1
    rfl rfl rfl rfl rfl rfl rfl rfl
    (broadcastInDim Cert.KernelIdeal.S25000x3x128 ![] Cert.KernelIdeal.Gen.bcast_S_S25000x3x128 (constant Cert.KernelIdeal.S_ .f32 0x00000000#32))
    (val_main_v49 (F := Ideal))
    (fun _ _ _ => rfl)
    (val_main_v50 (F := Ideal) (x0 m c))
    (Cert.Spec.vec (Cert.KernelIdeal.Res.phiJ m c) (Cert.KernelIdeal.Res.wts m c) (Cert.KernelIdeal.Res.vecJ m c) (x2 m c))
    (val_main_v48 (F := Ideal) (x1 m c) (x2 m c) (x3 m c) (x4 m c) (x5 m c) (x6 m c) (x7 m c) (x8 m c) (x9 m c) (x10 m c) (x11 m c) (x12 m c))
    (fun e a b => vec_swap m c e a b)
    n k f

end Cert.Bridge

end
-- ==== Proof.lean ====
/-
  The certificate of a message-passing layer on a graph of 25000 nodes and 400000 directed edges, 128 features per node.

  Both programs compute, on the extended reals,
    phi = act (x · W1ᵀ + b1) · W2ᵀ + b2              (a two-layer perceptron of the node features, act h = h / (1 + e^(-h))),
    w   = (rbf · Wrᵀ + br) ⊙ dist                     (edge weights),
    q   = phi[sender] ⊙ w, cut into three bands q_vv | q_ss | q_vs of 128 columns,
    scalar result  = x + Σ_{edges into a node} q_ss,
    vector result  = v + Σ_{edges into a node} (v[sender] ⊙ q_vv + q_vs ⊗ direction).
  The program under proof computes phi, w and the per-edge messages in three tiled regions (blocks of 1000 or 4000 rows),
  carries the vector messages with the component axis before the feature axis, and leaves the two row gathers and the
  two accumulating scatters to host operations; the reference is one host program in the layout
  `[.., feature, component]`. No step of the comparison needs a distributive law or a cancellation, so the finiteness
  precondition is never opened: the two sides differ by the order of two factors, by the order of the terms of finite
  sums, by reshapes against broadcasts of the same vectors, and by the exchange of two trailing axes through a row gather
  and an accumulating row scatter.

  The three frame claims are the generated frames (the reference's: its generated run with the results dropped); the
  program's sanctioned idealization rewrote nothing, so `preserves` is `True`; the value claim puts the program's run,
  read to its two result terms, beside the reference's run, read to the same two terms.
-/
import proofs.«123346_j82308753261028_2_alg».proof.Defs
import proofs.«123346_j82308753261028_2_alg».proof.Proof.Gen.Kernel
import proofs.«123346_j82308753261028_2_alg».proof.Proof.Gen.Kernel.Skeleton
import proofs.«123346_j82308753261028_2_alg».proof.Proof.Gen.Kernel.Launch
import proofs.«123346_j82308753261028_2_alg».proof.Proof.Gen.Kernel.Points
import proofs.«123346_j82308753261028_2_alg».proof.Proof.Gen.Kernel.Frame
import proofs.«123346_j82308753261028_2_alg».proof.Proof.Gen.KernelIdeal
import proofs.«123346_j82308753261028_2_alg».proof.Proof.Gen.KernelIdeal.Skeleton
import proofs.«123346_j82308753261028_2_alg».proof.Proof.Gen.KernelIdeal.Launch
import proofs.«123346_j82308753261028_2_alg».proof.Proof.Gen.KernelIdeal.Points
import proofs.«123346_j82308753261028_2_alg».proof.Proof.Gen.KernelIdeal.Frame
import proofs.«123346_j82308753261028_2_alg».proof.Proof.Gen.ReferenceIdeal
import proofs.«123346_j82308753261028_2_alg».proof.Proof.Gen.ReferenceIdeal.Run
import proofs.«123346_j82308753261028_2_alg».proof.Proof.Gen.ReferenceIdeal.Read
import proofs.«123346_j82308753261028_2_alg».proof.Proof.Gen.Pre_finite_inputs
import proofs.«123346_j82308753261028_2_alg».proof.Proof.KernelRun
import proofs.«123346_j82308753261028_2_alg».proof.Proof.Walk
import proofs.«123346_j82308753261028_2_alg».proof.Proof.Bridge
import Idealize.ShloMosaic.Adequacy
import Idealize.ShloMosaic.Init

set_option maxRecDepth 16384

noncomputable section

namespace Cert.Proof

open Idealize.ShloMosaic Idealize.SL.Sem

/-- The word-level program's frame: generated. -/
theorem frame_k : Cert.frame_Kernel := fun m ρ _ => Cert.Kernel.Gen.frame m ρ

/-- The idealized program's frame: generated. -/
theorem frame_ki : Cert.frame_KernelIdeal := fun m ρ _ => Cert.KernelIdeal.Gen.frame m ρ

/-- The reference's frame: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Run from memories that agree on the thirteen arguments, both programs end with the scalar result at `res0` and the
    vector result at `res1` of those arguments. -/
theorem algebraic : Cert.algebraic_KernelIdeal_ReferenceIdeal := by
  intro m ρ m' ρ' _ hagree
  refine ⟨fun c => Cert.KernelIdeal.Res.res0 m c, fun c => Cert.KernelIdeal.Res.res1 m c, ?_, ?_⟩
  · exact (θ_run Cert.KernelIdeal.defs _ _).mono
      (fun _ h c => ⟨(h c).1.trans (Cert.Walk.out0 m ρ c), (h c).2.1.trans (Cert.Walk.out1 m ρ c), (h c).2.2⟩)
      (Cert.KernelIdeal.GenP.run_results (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12⟩ := hagree c
      refine (Cert.ReferenceIdeal.Read.val_main_v52_eq (F := Ideal) _ _ _ _ _ _ _ _ _ _ _).trans ?_
      rw [a0, a1, a3, a4, a5, a7, a8, a9, a10, a11, a12]
      exact Cert.Bridge.res0_eq m c
    · obtain ⟨a0, a1, a2, a3, a4, a5, a6, a7, a8, a9, a10, a11, a12⟩ := hagree c
      refine (Cert.ReferenceIdeal.Read.val_main_v53_eq (F := Ideal) m' c).trans ?_
      rw [a0, a1, a2, a3, a4, a5, a6, a7, a8, a9, a10, a11, a12]
      exact Cert.Bridge.res1_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
